-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x300 : Shape := ⟨2, ![200000, 300]⟩
abbrev S200000 : Shape := ⟨1, ![200000]⟩
abbrev S2x3200000 : Shape := ⟨2, ![2, 3200000]⟩
abbrev S300x600 : Shape := ⟨2, ![300, 600]⟩
abbrev S600 : Shape := ⟨1, ![600]⟩
abbrev S600x2 : Shape := ⟨2, ![600, 2]⟩
abbrev S2 : Shape := ⟨1, ![2]⟩
abbrev S600x300 : Shape := ⟨2, ![600, 300]⟩
abbrev S300 : Shape := ⟨1, ![300]⟩
abbrev S_ : Shape := ⟨0, ![]⟩

class Facts : Prop where
  bcast_S_S200000x300 : S_.BroadcastsInDim S200000x300 (![] : Fin 0 → Fin S200000x300.rank)
  reducesTo_S200000x300_S_d0_1 : S200000x300.ReducesTo [0, 1] S_
  h_S_ : 0 < S_.numel
  bcast_S_S300x600 : S_.BroadcastsInDim S300x600 (![] : Fin 0 → Fin S300x600.rank)
  reducesTo_S300x600_S_d0_1 : S300x600.ReducesTo [0, 1] S_
  bcast_S_S600 : S_.BroadcastsInDim S600 (![] : Fin 0 → Fin S600.rank)
  reducesTo_S600_S_d0 : S600.ReducesTo [0] S_
  bcast_S_S600x2 : S_.BroadcastsInDim S600x2 (![] : Fin 0 → Fin S600x2.rank)
  reducesTo_S600x2_S_d0_1 : S600x2.ReducesTo [0, 1] S_
  bcast_S_S2 : S_.BroadcastsInDim S2 (![] : Fin 0 → Fin S2.rank)
  reducesTo_S2_S_d0 : S2.ReducesTo [0] S_
  bcast_S_S600x300 : S_.BroadcastsInDim S600x300 (![] : Fin 0 → Fin S600x300.rank)
  reducesTo_S600x300_S_d0_1 : S600x300.ReducesTo [0, 1] S_
  bcast_S_S300 : S_.BroadcastsInDim S300 (![] : Fin 0 → Fin S300.rank)
  reducesTo_S300_S_d0 : S300.ReducesTo [0] S_

variable [Facts]

def fn_part2 {F : FTy → Type} [FloatOps F] (main_arg9 : FVec F S600x300 .f32) (main_arg10 : FVec F S300 .f32) (main_v33 : IVec S_ 1) : IVec S_ 1 :=
  let main_v34 : FVec F S600x300 .f32 := Host.absf main_arg9
  let main_cst_12 : FVec F S_ .f32 := constant S_ .f32 0x7F800000#32
  let main_v35 : FVec F S600x300 .f32 := broadcastInDim S600x300 ![] bcast_S_S600x300 main_cst_12
  let main_v36 : IVec S600x300 1 := cmpf .olt main_v34 main_v35
  let main_c_13 : IVec S_ 1 := constantI S_ 1 1#1
  let main_v37 : IVec S_ 1 := (fun x v => Host.reduce IntOp.andi x v reducesTo_S600x300_S_d0_1 h_S_) main_v36 main_c_13
  let main_v38 : IVec S_ 1 := andi main_v33 main_v37
  let main_v39 : FVec F S300 .f32 := Host.absf main_arg10
  let main_cst_14 : FVec F S_ .f32 := constant S_ .f32 0x7F800000#32
  let main_v40 : FVec F S300 .f32 := broadcastInDim S300 ![] bcast_S_S300 main_cst_14
  let main_v41 : IVec S300 1 := cmpf .olt main_v39 main_v40
  let main_c_15 : IVec S_ 1 := constantI S_ 1 1#1
  let main_v42 : IVec S_ 1 := (fun x v => Host.reduce IntOp.andi x v reducesTo_S300_S_d0 h_S_) main_v41 main_c_15
  let main_v43 : IVec S_ 1 := andi main_v38 main_v42
  main_v43

def fn_part1 {F : FTy → Type} [FloatOps F] (main_arg6 : FVec F S2 .f32) (main_arg7 : FVec F S300x600 .f32) (main_arg8 : FVec F S600 .f32) (main_arg9 : FVec F S600x300 .f32) (main_arg10 : FVec F S300 .f32) (main_v13 : IVec S_ 1) (main_v16 : IVec S600x2 1) : IVec S_ 1 :=
  let main_c_5 : IVec S_ 1 := constantI S_ 1 1#1
  let main_v17 : IVec S_ 1 := (fun x v => Host.reduce IntOp.andi x v reducesTo_S600x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S300x600 .f32 := Host.absf main_arg7
  let main_cst_8 : FVec F S_ .f32 := constant S_ .f32 0x7F800000#32
  let main_v25 : FVec F S300x600 .f32 := broadcastInDim S300x600 ![] bcast_S_S300x600 main_cst_8
  let main_v26 : IVec S300x600 1 := cmpf .olt main_v24 main_v25
  let main_c_9 : IVec S_ 1 := constantI S_ 1 1#1
  let main_v27 : IVec S_ 1 := (fun x v => Host.reduce IntOp.andi x v reducesTo_S300x600_S_d0_1 h_S_) main_v26 main_c_9
  let main_v28 : IVec S_ 1 := andi main_v23 main_v27
  let main_v29 : FVec F S600 .f32 := Host.absf main_arg8
  let main_cst_10 : FVec F S_ .f32 := constant S_ .f32 0x7F800000#32
  let main_v30 : FVec F S600 .f32 := broadcastInDim S600 ![] bcast_S_S600 main_cst_10
  let main_v31 : IVec S600 1 := cmpf .olt main_v29 main_v30
  let main_c_11 : IVec S_ 1 := constantI S_ 1 1#1
  let main_v32 : IVec S_ 1 := (fun x v => Host.reduce IntOp.andi x v reducesTo_S600_S_d0 h_S_) main_v31 main_c_11
  let main_v33 : IVec S_ 1 := andi main_v28 main_v32
  fn_part2 (F := F) main_arg9 main_arg10 main_v33

def fn {F : FTy → Type} [FloatOps F] (main_arg0 : FVec F S200000x300 .f32) (main_arg1 : IVec S200000 32) (main_arg2 : IVec S2x3200000 32) (main_arg3 : FVec F S300x600 .f32) (main_arg4 : FVec F S600 .f32) (main_arg5 : FVec F S600x2 .f32) (main_arg6 : FVec F S2 .f32) (main_arg7 : FVec F S300x600 .f32) (main_arg8 : FVec F S600 .f32) (main_arg9 : FVec F S600x300 .f32) (main_arg10 : FVec F S300 .f32) : IVec S_ 1 :=
  let main_v0 : FVec F S200000x300 .f32 := Host.absf main_arg0
  let main_cst : FVec F S_ .f32 := constant S_ .f32 0x7F800000#32
  let main_v1 : FVec F S200000x300 .f32 := broadcastInDim S200000x300 ![] bcast_S_S200000x300 main_cst
  let main_v2 : IVec S200000x300 1 := cmpf .olt main_v0 main_v1
  let main_c : IVec S_ 1 := constantI S_ 1 1#1
  let main_v3 : IVec S_ 1 := (fun x v => Host.reduce IntOp.andi x v reducesTo_S200000x300_S_d0_1 h_S_) main_v2 main_c
  let main_v4 : FVec F S300x600 .f32 := Host.absf main_arg3
  let main_cst_0 : FVec F S_ .f32 := constant S_ .f32 0x7F800000#32
  let main_v5 : FVec F S300x600 .f32 := broadcastInDim S300x600 ![] bcast_S_S300x600 main_cst_0
  let main_v6 : IVec S300x600 1 := cmpf .olt main_v4 main_v5
  let main_c_1 : IVec S_ 1 := constantI S_ 1 1#1
  let main_v7 : IVec S_ 1 := (fun x v => Host.reduce IntOp.andi x v reducesTo_S300x600_S_d0_1 h_S_) main_v6 main_c_1
  let main_v8 : IVec S_ 1 := andi main_v3 main_v7
  let main_v9 : FVec F S600 .f32 := Host.absf main_arg4
  let main_cst_2 : FVec F S_ .f32 := constant S_ .f32 0x7F800000#32
  let main_v10 : FVec F S600 .f32 := broadcastInDim S600 ![] bcast_S_S600 main_cst_2
  let main_v11 : IVec S600 1 := cmpf .olt main_v9 main_v10
  let main_c_3 : IVec S_ 1 := constantI S_ 1 1#1
  let main_v12 : IVec S_ 1 := (fun x v => Host.reduce IntOp.andi x v reducesTo_S600_S_d0 h_S_) main_v11 main_c_3
  let main_v13 : IVec S_ 1 := andi main_v8 main_v12
  let main_v14 : FVec F S600x2 .f32 := Host.absf main_arg5
  let main_cst_4 : FVec F S_ .f32 := constant S_ .f32 0x7F800000#32
  let main_v15 : FVec F S600x2 .f32 := broadcastInDim S600x2 ![] bcast_S_S600x2 main_cst_4
  let main_v16 : IVec S600x2 1 := cmpf .olt main_v14 main_v15
  fn_part1 (F := F) main_arg6 main_arg7 main_arg8 main_arg9 main_arg10 main_v13 main_v16
-- ==== Kernel.lean ====
abbrev S200000x300 : Shape := ⟨2, ![200000, 300]⟩
abbrev S200000 : Shape := ⟨1, ![200000]⟩
abbrev S2x3200000 : Shape := ⟨2, ![2, 3200000]⟩
abbrev S300x600 : Shape := ⟨2, ![300, 600]⟩
abbrev S600 : Shape := ⟨1, ![600]⟩
abbrev S600x2 : Shape := ⟨2, ![600, 2]⟩
abbrev S2 : Shape := ⟨1, ![2]⟩
abbrev S600x300 : Shape := ⟨2, ![600, 300]⟩
abbrev S300 : Shape := ⟨1, ![300]⟩
abbrev S_ : Shape := ⟨0, ![]⟩
abbrev S3200000 : Shape := ⟨1, ![3200000]⟩
abbrev S1x3200000 : Shape := ⟨2, ![1, 3200000]⟩
abbrev S3200000x1 : Shape := ⟨2, ![3200000, 1]⟩
abbrev S200000x1 : Shape := ⟨2, ![200000, 1]⟩
abbrev S600x1 : Shape := ⟨2, ![600, 1]⟩
abbrev S1 : Shape := ⟨1, ![1]⟩
abbrev S1x1 : Shape := ⟨2, ![1, 1]⟩
abbrev S2000x300 : Shape := ⟨2, ![2000, 300]⟩
abbrev S2000x600 : Shape := ⟨2, ![2000, 600]⟩
abbrev S1x600 : Shape := ⟨2, ![1, 600]⟩
abbrev S2000x1 : Shape := ⟨2, ![2000, 1]⟩
abbrev S1000x300 : Shape := ⟨2, ![1000, 300]⟩
abbrev S1000x600 : Shape := ⟨2, ![1000, 600]⟩
abbrev S1x300 : Shape := ⟨2, ![1, 300]⟩

abbrev nBuf : Space → Nat
  | .hbm => 45
  | .vmem => 16
  | .smem => 0
  | _ => 0

abbrev bufTy : (tb : Table) → Fin (tcTables nBuf tb) → BufTy
  | .hbm, ⟨0, _⟩ => ⟨S200000x300, .f32⟩
  | .hbm, ⟨1, _⟩ => ⟨S200000, .i32⟩
  | .hbm, ⟨2, _⟩ => ⟨S2x3200000, .i32⟩
  | .hbm, ⟨3, _⟩ => ⟨S300x600, .f32⟩
  | .hbm, ⟨4, _⟩ => ⟨S600, .f32⟩
  | .hbm, ⟨5, _⟩ => ⟨S600x2, .f32⟩
  | .hbm, ⟨6, _⟩ => ⟨S2, .f32⟩
  | .hbm, ⟨7, _⟩ => ⟨S300x600, .f32⟩
  | .hbm, ⟨8, _⟩ => ⟨S600, .f32⟩
  | .hbm, ⟨9, _⟩ => ⟨S600x300, .f32⟩
  | .hbm, ⟨10, _⟩ => ⟨S300, .f32⟩
  | .hbm, ⟨11, _⟩ => ⟨S_, .f32⟩
  | .hbm, ⟨12, _⟩ => ⟨S3200000, .f32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S200000, .f32⟩
  | .hbm, ⟨17, _⟩ => ⟨S3200000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S200000x1, .f32⟩
  | .hbm, ⟨24, _⟩ => ⟨S300x600, .bf16⟩
  | .hbm, ⟨25, _⟩ => ⟨S600x1, .f32⟩
  | .hbm, ⟨26, _⟩ => ⟨S600x1, .f32⟩
  | .hbm, ⟨27, _⟩ => ⟨S600x1, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S1x1, .f32⟩
  | .hbm, ⟨34, _⟩ => ⟨S600x1, .bf16⟩
  | .hbm, ⟨35, _⟩ => ⟨S200000x300, .f32⟩
  | .hbm, ⟨36, _⟩ => ⟨S200000x300, .f32⟩
  | .hbm, ⟨37, _⟩ => ⟨S200000x300, .f32⟩
  | .hbm, ⟨38, _⟩ => ⟨S_, .f32⟩
  | .hbm, ⟨39, _⟩ => ⟨S2000x300, .f32⟩
  | .hbm, ⟨40, _⟩ => ⟨S200000x1, .i32⟩
  | .hbm, ⟨41, _⟩ => ⟨S2000x300, .f32⟩
  | .hbm, ⟨42, _⟩ => ⟨S300x600, .bf16⟩
  | .hbm, ⟨43, _⟩ => ⟨S600x300, .bf16⟩
  | .hbm, ⟨44, _⟩ => ⟨S2000x300, .f32⟩
  | .local _ .vmem, ⟨0, _⟩ => ⟨S2000x300, .f32⟩
  | .local _ .vmem, ⟨1, _⟩ => ⟨S2000x300, .f32⟩
  | .local _ .vmem, ⟨2, _⟩ => ⟨S300x600, .bf16⟩
  | .local _ .vmem, ⟨3, _⟩ => ⟨S600, .f32⟩
  | .local _ .vmem, ⟨4, _⟩ => ⟨S600x1, .bf16⟩
  | .local _ .vmem, ⟨5, _⟩ => ⟨S1x1, .f32⟩
  | .local _ .vmem, ⟨6, _⟩ => ⟨S2000x300, .f32⟩
  | .local _ .vmem, ⟨7, _⟩ => ⟨S2000x300, .f32⟩
  | .local _ .vmem, ⟨8, _⟩ => ⟨S1000x300, .f32⟩
  | .local _ .vmem, ⟨9, _⟩ => ⟨S1000x300, .f32⟩
  | .local _ .vmem, ⟨10, _⟩ => ⟨S300x600, .bf16⟩
  | .local _ .vmem, ⟨11, _⟩ => ⟨S600, .f32⟩
  | .local _ .vmem, ⟨12, _⟩ => ⟨S600x300, .bf16⟩
  | .local _ .vmem, ⟨13, _⟩ => ⟨S300, .f32⟩
  | .local _ .vmem, ⟨14, _⟩ => ⟨S1000x300, .f32⟩
  | .local _ .vmem, ⟨15, _⟩ => ⟨S1000x300, .f32⟩
  | _, _ => ⟨S200000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S600x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x600 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S600 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S600x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S3200000 : S_.BroadcastsInDim S3200000 (![] : Fin 0 → Fin S3200000.rank)
  slices_S2x3200000_S1x3200000_0_0 : S2x3200000.Slices ![0, 0] S1x3200000
  shapeCasts_S1x3200000_S3200000 : S1x3200000.ShapeCasts S3200000
  bcast_S_S200000 : S_.BroadcastsInDim S200000 (![] : Fin 0 → Fin S200000.rank)
  bcast_S3200000_S3200000x1_0 : S3200000.BroadcastsInDim S3200000x1 (![0] : Fin 1 → Fin S3200000x1.rank)
  bcast_S200000_S200000x1_0 : S200000.BroadcastsInDim S200000x1 (![0] : Fin 1 → Fin S200000x1.rank)
  bitsLt_bf16_f32 : FTy.bits .bf16 < FTy.bits .f32
  slices_S600x2_S600x1_0_0 : S600x2.Slices ![0, 0] S600x1
  slices_S600x2_S600x1_0_1 : S600x2.Slices ![0, 1] S600x1
  slices_S2_S1_0 : S2.Slices ![0] S1
  shapeCasts_S1_S_ : S1.ShapeCasts S_
  slices_S2_S1_1 : S2.Slices ![1] S1
  shapeCasts_S_S1x1 : S_.ShapeCasts S1x1
  inb_S2000x300_S2000x300_0_0 : ∀ a, (![0, 0] : Fin 2 → Nat) a + S2000x300.size a ≤ S2000x300.size a
  h_S2000x300 : 0 < S2000x300.numel
  inb_S300x600_S300x600_0_0 : ∀ a, (![0, 0] : Fin 2 → Nat) a + S300x600.size a ≤ S300x600.size a
  h_S300x600 : 0 < S300x600.numel
  shapeCasts_S300x600_S300x600 : S300x600.ShapeCasts S300x600
  inb_S600_S600_0 : ∀ a, (![0] : Fin 1 → Nat) a + S600.size a ≤ S600.size a
  h_S600 : 0 < S600.numel
  shapeCasts_S600_S1x600 : S600.ShapeCasts S1x600
  broadcasts_S1x600_S2000x600 : S1x600.Broadcasts S2000x600
  inb_S600x1_S600x1_0_0 : ∀ a, (![0, 0] : Fin 2 → Nat) a + S600x1.size a ≤ S600x1.size a
  h_S600x1 : 0 < S600x1.numel
  shapeCasts_S600x1_S600x1 : S600x1.ShapeCasts S600x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x300 : S2000x1.Broadcasts S2000x300
  bcast_S200000x1_S200000x300_0_1 : S200000x1.BroadcastsInDim S200000x300 (![0, 1] : Fin 2 → Fin S200000x300.rank)
  bcast_S_S2000x300 : S_.BroadcastsInDim S2000x300 (![] : Fin 0 → Fin S2000x300.rank)
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  broadcasts_S1x600_S1000x600 : S1x600.Broadcasts S1000x600
  inb_S600x300_S600x300_0_0 : ∀ a, (![0, 0] : Fin 2 → Nat) a + S600x300.size a ≤ S600x300.size a
  h_S600x300 : 0 < S600x300.numel
  shapeCasts_S600x300_S600x300 : S600x300.ShapeCasts S600x300
  inb_S300_S300_0 : ∀ a, (![0] : Fin 1 → Nat) a + S300.size a ≤ S300.size a
  h_S300 : 0 < S300.numel
  shapeCasts_S300_S1x300 : S300.ShapeCasts S1x300
  broadcasts_S1x300_S1000x300 : S1x300.Broadcasts S1000x300
  scatter_S200000_S3200000x1_S3200000_n_0_0_1_wf : ScatterDims.WF S200000 S3200000x1 S3200000 [] [0] [0] 1
  dot_S2000x300_S300x600_S2000x600_1_0_0_1_n_n_wf : DotDims.WF S2000x300 S300x600 S2000x600 [1] [0] [0] [1] [] []
  dot_S2000x600_S600x1_S2000x1_1_0_0_1_n_n_wf : DotDims.WF S2000x600 S600x1 S2000x1 [1] [0] [0] [1] [] []
  scatter_S2000x300_S200000x1_S200000x300_1_0_0_1_wf : ScatterDims.WF S2000x300 S200000x1 S200000x300 [1] [0] [0] 1
  dot_S1000x300_S300x600_S1000x600_1_0_0_1_n_n_wf : DotDims.WF S1000x300 S300x600 S1000x600 [1] [0] [0] [1] [] []
  dot_S1000x600_S600x300_S1000x300_1_0_0_1_n_n_wf : DotDims.WF S1000x600 S600x300 S1000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S200000x300.size a
  hwx0_0 : ∀ i : grid0.Coords, EltTy.bits .f32 = 32 ∨ (Rect.block (s := S200000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x600.size a ≤ S300x600.size a
  hwx0_1 : ∀ i : grid0.Coords, EltTy.bits .bf16 = 32 ∨ (Rect.block (s := S300x600) S300x600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S600.size a ≤ S600.size a
  hwx0_2 : ∀ i : grid0.Coords, EltTy.bits .f32 = 32 ∨ (Rect.block (s := S600) S600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S600x1.size a ≤ S600x1.size a
  hwx0_3 : ∀ i : grid0.Coords, EltTy.bits .bf16 = 32 ∨ (Rect.block (s := S600x1) S600x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x300.size a ≤ S200000x300.size a
  hwx0_5 : ∀ i : grid0.Coords, EltTy.bits .f32 = 32 ∨ (Rect.block (s := S200000x300) S2000x300.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x300.size a ≤ S2000x300.size a
  hwx1_0 : ∀ i : grid1.Coords, EltTy.bits .f32 = 32 ∨ (Rect.block (s := S2000x300) S1000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x600.size a ≤ S300x600.size a
  hwx1_1 : ∀ i : grid1.Coords, EltTy.bits .bf16 = 32 ∨ (Rect.block (s := S300x600) S300x600.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S600.size a ≤ S600.size a
  hwx1_2 : ∀ i : grid1.Coords, EltTy.bits .f32 = 32 ∨ (Rect.block (s := S600) S600.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S600x300.size a ≤ S600x300.size a
  hwx1_3 : ∀ i : grid1.Coords, EltTy.bits .bf16 = 32 ∨ (Rect.block (s := S600x300) S600x300.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S300.size a ≤ S300.size a
  hwx1_4 : ∀ i : grid1.Coords, EltTy.bits .f32 = 32 ∨ (Rect.block (s := S300) S300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x300.size a ≤ S2000x300.size a
  hwx1_5 : ∀ i : grid1.Coords, EltTy.bits .f32 = 32 ∨ (Rect.block (s := S2000x300) S1000x300.size (cc1_transform_5 i) (hinb1_5 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S2000x300_S300x600_S2000x600_1_0_0_1_n_n : DotDims S2000x300 S300x600 S2000x600 where
  lhsContracting := [1]
  rhsContracting := [0]
  lhsNonContracting := [0]
  rhsNonContracting := [1]
  lhsBatch := []
  rhsBatch := []
  wf := dot_S2000x300_S300x600_S2000x600_1_0_0_1_n_n_wf
def dot_S2000x600_S600x1_S2000x1_1_0_0_1_n_n : DotDims S2000x600 S600x1 S2000x1 where
  lhsContracting := [1]
  rhsContracting := [0]
  lhsNonContracting := [0]
  rhsNonContracting := [1]
  lhsBatch := []
  rhsBatch := []
  wf := dot_S2000x600_S600x1_S2000x1_1_0_0_1_n_n_wf
def scatter_S2000x300_S200000x1_S200000x300_1_0_0_1 : ScatterDims S2000x300 S200000x1 S200000x300 where
  updateWindowDims := [1]
  insertedWindowDims := [0]
  scatterDimsToOperandDims := [0]
  indexVectorDim := 1
  wf := scatter_S2000x300_S200000x1_S200000x300_1_0_0_1_wf
def dot_S1000x300_S300x600_S1000x600_1_0_0_1_n_n : DotDims S1000x300 S300x600 S1000x600 where
  lhsContracting := [1]
  rhsContracting := [0]
  lhsNonContracting := [0]
  rhsNonContracting := [1]
  lhsBatch := []
  rhsBatch := []
  wf := dot_S1000x300_S300x600_S1000x600_1_0_0_1_n_n_wf
def dot_S1000x600_S600x300_S1000x300_1_0_0_1_n_n : DotDims S1000x600 S600x300 S1000x300 where
  lhsContracting := [1]
  rhsContracting := [0]
  lhsNonContracting := [0]
  rhsNonContracting := [1]
  lhsBatch := []
  rhsBatch := []
  wf := dot_S1000x600_S600x300_S1000x300_1_0_0_1_n_n_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S300x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S600x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S1000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S300x600.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S600.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S600x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1000x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x300 : Shape := ⟨2, ![200000, 300]⟩
abbrev S200000 : Shape := ⟨1, ![200000]⟩
abbrev S2x3200000 : Shape := ⟨2, ![2, 3200000]⟩
abbrev S300x600 : Shape := ⟨2, ![300, 600]⟩
abbrev S600 : Shape := ⟨1, ![600]⟩
abbrev S600x2 : Shape := ⟨2, ![600, 2]⟩
abbrev S2 : Shape := ⟨1, ![2]⟩
abbrev S600x300 : Shape := ⟨2, ![600, 300]⟩
abbrev S300 : Shape := ⟨1, ![300]⟩
abbrev S_ : Shape := ⟨0, ![]⟩
abbrev S3200000 : Shape := ⟨1, ![3200000]⟩
abbrev S1x3200000 : Shape := ⟨2, ![1, 3200000]⟩
abbrev S3200000x1 : Shape := ⟨2, ![3200000, 1]⟩
abbrev S200000x1 : Shape := ⟨2, ![200000, 1]⟩
abbrev S200000x600 : Shape := ⟨2, ![200000, 600]⟩
abbrev S1x600 : Shape := ⟨2, ![1, 600]⟩
abbrev S200000x2 : Shape := ⟨2, ![200000, 2]⟩
abbrev S1x2 : Shape := ⟨2, ![1, 2]⟩
abbrev S200000x2x1 : Shape := ⟨3, ![200000, 2, 1]⟩
abbrev S200000x1x300 : Shape := ⟨3, ![200000, 1, 300]⟩
abbrev S200000x2x300 : Shape := ⟨3, ![200000, 2, 300]⟩
abbrev S2000x2x300 : Shape := ⟨3, ![2000, 2, 300]⟩
abbrev S2000x1x300 : Shape := ⟨3, ![2000, 1, 300]⟩
abbrev S2000x300 : Shape := ⟨2, ![2000, 300]⟩
abbrev S2000x600 : Shape := ⟨2, ![2000, 600]⟩
abbrev S1x300 : Shape := ⟨2, ![1, 300]⟩

abbrev nBuf : Space → Nat
  | .hbm => 82
  | .vmem => 0
  | .smem => 0
  | _ => 0

abbrev bufTy : (tb : Table) → Fin (tcTables nBuf tb) → BufTy
  | .hbm, ⟨0, _⟩ => ⟨S200000x300, .f32⟩
  | .hbm, ⟨1, _⟩ => ⟨S200000, .i32⟩
  | .hbm, ⟨2, _⟩ => ⟨S2x3200000, .i32⟩
  | .hbm, ⟨3, _⟩ => ⟨S300x600, .f32⟩
  | .hbm, ⟨4, _⟩ => ⟨S600, .f32⟩
  | .hbm, ⟨5, _⟩ => ⟨S600x2, .f32⟩
  | .hbm, ⟨6, _⟩ => ⟨S2, .f32⟩
  | .hbm, ⟨7, _⟩ => ⟨S300x600, .f32⟩
  | .hbm, ⟨8, _⟩ => ⟨S600, .f32⟩
  | .hbm, ⟨9, _⟩ => ⟨S600x300, .f32⟩
  | .hbm, ⟨10, _⟩ => ⟨S300, .f32⟩
  | .hbm, ⟨11, _⟩ => ⟨S_, .f32⟩
  | .hbm, ⟨12, _⟩ => ⟨S3200000, .f32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S200000, .f32⟩
  | .hbm, ⟨17, _⟩ => ⟨S3200000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S200000x1, .f32⟩
  | .hbm, ⟨24, _⟩ => ⟨S200000x600, .f32⟩
  | .hbm, ⟨25, _⟩ => ⟨S1x600, .f32⟩
  | .hbm, ⟨26, _⟩ => ⟨S200000x600, .f32⟩
  | .hbm, ⟨27, _⟩ => ⟨S200000x600, .f32⟩
  | .hbm, ⟨28, _⟩ => ⟨S200000x600, .f32⟩
  | .hbm, ⟨29, _⟩ => ⟨S200000x2, .f32⟩
  | .hbm, ⟨30, _⟩ => ⟨S1x2, .f32⟩
  | .hbm, ⟨31, _⟩ => ⟨S200000x2, .f32⟩
  | .hbm, ⟨32, _⟩ => ⟨S200000x2, .f32⟩
  | .hbm, ⟨33, _⟩ => ⟨S_, .f32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x2, .f32⟩
  | .hbm, ⟨40, _⟩ => ⟨S200000x2, .f32⟩
  | .hbm, ⟨41, _⟩ => ⟨S200000x2, .f32⟩
  | .hbm, ⟨42, _⟩ => ⟨S_, .f32⟩
  | .hbm, ⟨43, _⟩ => ⟨S200000, .f32⟩
  | .hbm, ⟨44, _⟩ => ⟨S200000x1, .f32⟩
  | .hbm, ⟨45, _⟩ => ⟨S200000x2, .f32⟩
  | .hbm, ⟨46, _⟩ => ⟨S200000x2, .f32⟩
  | .hbm, ⟨47, _⟩ => ⟨S200000x2, .f32⟩
  | .hbm, ⟨48, _⟩ => ⟨S200000x2, .f32⟩
  | .hbm, ⟨49, _⟩ => ⟨S200000x2x1, .f32⟩
  | .hbm, ⟨50, _⟩ => ⟨S200000x1x300, .f32⟩
  | .hbm, ⟨51, _⟩ => ⟨S200000x2x300, .f32⟩
  | .hbm, ⟨52, _⟩ => ⟨S200000x2x300, .f32⟩
  | .hbm, ⟨53, _⟩ => ⟨S200000x2x300, .f32⟩
  | .hbm, ⟨54, _⟩ => ⟨S_, .f32⟩
  | .hbm, ⟨55, _⟩ => ⟨S2000x2x300, .f32⟩
  | .hbm, ⟨56, _⟩ => ⟨S200000x1, .i32⟩
  | .hbm, ⟨57, _⟩ => ⟨S2000x2x300, .f32⟩
  | .hbm, ⟨58, _⟩ => ⟨S2000x1x300, .f32⟩
  | .hbm, ⟨59, _⟩ => ⟨S2000x300, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2000x300, .f32⟩
  | .hbm, ⟨64, _⟩ => ⟨S2000x300, .f32⟩
  | .hbm, ⟨65, _⟩ => ⟨S_, .f32⟩
  | .hbm, ⟨66, _⟩ => ⟨S2000x300, .f32⟩
  | .hbm, ⟨67, _⟩ => ⟨S2000x300, .f32⟩
  | .hbm, ⟨68, _⟩ => ⟨S2000x600, .f32⟩
  | .hbm, ⟨69, _⟩ => ⟨S1x600, .f32⟩
  | .hbm, ⟨70, _⟩ => ⟨S2000x600, .f32⟩
  | .hbm, ⟨71, _⟩ => ⟨S2000x600, .f32⟩
  | .hbm, ⟨72, _⟩ => ⟨S_, .f32⟩
  | .hbm, ⟨73, _⟩ => ⟨S2000x600, .f32⟩
  | .hbm, ⟨74, _⟩ => ⟨S2000x600, .f32⟩
  | .hbm, ⟨75, _⟩ => ⟨S2000x300, .f32⟩
  | .hbm, ⟨76, _⟩ => ⟨S1x300, .f32⟩
  | .hbm, ⟨77, _⟩ => ⟨S2000x300, .f32⟩
  | .hbm, ⟨78, _⟩ => ⟨S2000x300, .f32⟩
  | .hbm, ⟨79, _⟩ => ⟨S_, .f32⟩
  | .hbm, ⟨80, _⟩ => ⟨S2000x300, .f32⟩
  | .hbm, ⟨81, _⟩ => ⟨S2000x300, .f32⟩
  | _, _ => ⟨S200000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  slices_S2x3200000_S1x3200000_0_0 : S2x3200000.Slices ![0, 0] S1x3200000
  shapeCasts_S1x3200000_S3200000 : S1x3200000.ShapeCasts S3200000
  bcast_S_S200000 : S_.BroadcastsInDim S200000 (![] : Fin 0 → Fin S200000.rank)
  bcast_S3200000_S3200000x1_0 : S3200000.BroadcastsInDim S3200000x1 (![0] : Fin 1 → Fin S3200000x1.rank)
  bcast_S200000_S200000x1_0 : S200000.BroadcastsInDim S200000x1 (![0] : Fin 1 → Fin S200000x1.rank)
  bcast_S600_S1x600_1 : S600.BroadcastsInDim S1x600 (![1] : Fin 1 → Fin S1x600.rank)
  bcast_S1x600_S200000x600_0_1 : S1x600.BroadcastsInDim S200000x600 (![0, 1] : Fin 2 → Fin S200000x600.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000x1_S200000x2_0_1 : S200000x1.BroadcastsInDim S200000x2 (![0, 1] : Fin 2 → Fin S200000x2.rank)
  bcast_S200000x2_S200000x2x1_0_1 : S200000x2.BroadcastsInDim S200000x2x1 (![0, 1] : Fin 2 → Fin S200000x2x1.rank)
  bcast_S200000x300_S200000x1x300_0_2 : S200000x300.BroadcastsInDim S200000x1x300 (![0, 2] : Fin 2 → Fin S200000x1x300.rank)
  bcast_S200000x2x1_S200000x2x300_0_1_2 : S200000x2x1.BroadcastsInDim S200000x2x300 (![0, 1, 2] : Fin 3 → Fin S200000x2x300.rank)
  bcast_S200000x1x300_S200000x2x300_0_1_2 : S200000x1x300.BroadcastsInDim S200000x2x300 (![0, 1, 2] : Fin 3 → Fin S200000x2x300.rank)
  bcast_S_S2000x2x300 : S_.BroadcastsInDim S2000x2x300 (![] : Fin 0 → Fin S2000x2x300.rank)
  slices_S2000x2x300_S2000x1x300_0_0_0 : S2000x2x300.Slices ![0, 0, 0] S2000x1x300
  shapeCasts_S2000x1x300_S2000x300 : S2000x1x300.ShapeCasts S2000x300
  bcast_S_S2000x300 : S_.BroadcastsInDim S2000x300 (![] : Fin 0 → Fin S2000x300.rank)
  bcast_S1x600_S2000x600_0_1 : S1x600.BroadcastsInDim S2000x600 (![0, 1] : Fin 2 → Fin S2000x600.rank)
  bcast_S_S2000x600 : S_.BroadcastsInDim S2000x600 (![] : Fin 0 → Fin S2000x600.rank)
  bcast_S300_S1x300_1 : S300.BroadcastsInDim S1x300 (![1] : Fin 1 → Fin S1x300.rank)
  bcast_S1x300_S2000x300_0_1 : S1x300.BroadcastsInDim S2000x300 (![0, 1] : Fin 2 → Fin S2000x300.rank)
  scatter_S200000_S3200000x1_S3200000_n_0_0_1_wf : ScatterDims.WF S200000 S3200000x1 S3200000 [] [0] [0] 1
  dot_S200000x300_S300x600_S200000x600_1_0_0_1_n_n_wf : DotDims.WF S200000x300 S300x600 S200000x600 [1] [0] [0] [1] [] []
  dot_S200000x600_S600x2_S200000x2_1_0_0_1_n_n_wf : DotDims.WF S200000x600 S600x2 S200000x2 [1] [0] [0] [1] [] []
  scatter_S2000x2x300_S200000x1_S200000x2x300_12_0_0_1_wf : ScatterDims.WF S2000x2x300 S200000x1 S200000x2x300 [1, 2] [0] [0] 1
  dot_S2000x300_S300x600_S2000x600_1_0_0_1_n_n_wf : DotDims.WF S2000x300 S300x600 S2000x600 [1] [0] [0] [1] [] []
  dot_S2000x600_S600x300_S2000x300_1_0_0_1_n_n_wf : DotDims.WF S2000x600 S600x300 S2000x300 [1] [0] [0] [1] [] []

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x300_S300x600_S200000x600_1_0_0_1_n_n : DotDims S200000x300 S300x600 S200000x600 where
  lhsContracting := [1]
  rhsContracting := [0]
  lhsNonContracting := [0]
  rhsNonContracting := [1]
  lhsBatch := []
  rhsBatch := []
  wf := dot_S200000x300_S300x600_S200000x600_1_0_0_1_n_n_wf
def dot_S200000x600_S600x2_S200000x2_1_0_0_1_n_n : DotDims S200000x600 S600x2 S200000x2 where
  lhsContracting := [1]
  rhsContracting := [0]
  lhsNonContracting := [0]
  rhsNonContracting := [1]
  lhsBatch := []
  rhsBatch := []
  wf := dot_S200000x600_S600x2_S200000x2_1_0_0_1_n_n_wf
def scatter_S2000x2x300_S200000x1_S200000x2x300_12_0_0_1 : ScatterDims S2000x2x300 S200000x1 S200000x2x300 where
  updateWindowDims := [1, 2]
  insertedWindowDims := [0]
  scatterDimsToOperandDims := [0]
  indexVectorDim := 1
  wf := scatter_S2000x2x300_S200000x1_S200000x2x300_12_0_0_1_wf
def dot_S2000x300_S300x600_S2000x600_1_0_0_1_n_n : DotDims S2000x300 S300x600 S2000x600 where
  lhsContracting := [1]
  rhsContracting := [0]
  lhsNonContracting := [0]
  rhsNonContracting := [1]
  lhsBatch := []
  rhsBatch := []
  wf := dot_S2000x300_S300x600_S2000x600_1_0_0_1_n_n_wf
def dot_S2000x600_S600x300_S2000x300_1_0_0_1_n_n : DotDims S2000x600 S600x300 S2000x300 where
  lhsContracting := [1]
  rhsContracting := [0]
  lhsNonContracting := [0]
  rhsNonContracting := [1]
  lhsBatch := []
  rhsBatch := []
  wf := dot_S2000x600_S600x300_S2000x300_1_0_0_1_n_n_wf

class Facts : Prop extends Facts₀ where

variable [Facts]
-- ==== Proof.KernelRun.lean ====
/-
  The idealized kernel's run with its result NAMED.

  @main is four segments: the host operations before the attention call, the attention call, the host operations
  between the two calls, the classifier call. The buffer contents at the four boundaries are a fold from the launch
  memory; the last boundary's contents are `W4`. Every weakly fair execution ends with every unscoped buffer at
  `W4`, so in particular the result buffer `main_v29` ends at `W4` read at `main_v29`, and the eleven argument
  arrays end as launched. (The frame claim keeps only the second half of that sentence; this statement keeps both.)
-/
import proofs.«180667_j4002909520045_1_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays end as launched. -/
theorem run_valued : θ_run defs (onTc (τ := τ) (main (F := F))) ⟨m, fun _ => 0, ρ⟩ (fun r => ∀ c : Dev nD,
      r.2.mem ((c.tc : Thread nD τ).loc main_v29) = W4 m ρ c (Proc.devRef .tc main_v29)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Valued

end
-- ==== Proof.LibSoftmaxTwo.lean ====
/-
  GENERAL LEMMAS: the two-way softmax against the logistic function, on the extended reals.

  For real logits a and b, with m their maximum,
      e^(a - m) / (e^(a - m) + e^(b - m))  =  1 / (1 + e^(-(a - b))),
  because e^(b - m) = e^(a - m) · e^(-(a - b)) and e^(a - m) > 0 cancels.  The difference of the two logits,
  each an affine form  Σₖ tₖ·uₖ + p  in the same real coefficients tₖ, is the affine form in the differences:
      (Σₖ tₖ·uₖ + p) - (Σₖ tₖ·vₖ + q)  =  Σₖ tₖ·(uₖ - vₖ) + (p - q).
  Both are statements about REAL numbers; on the extended reals they hold for finite entries only, which is why
  the entries are coerced reals here.  The hyperbolic tangent of any extended real is a real number.
-/
import Idealize.ShloMosaic.PureOps.Ideal
import Idealize.ShloMosaic.PureOps.Ideal.Laws

noncomputable section

namespace Cert.Pooling

open Idealize.ShloMosaic

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The real identity behind the two-way softmax. -/
theorem softmax2_real (a b : ℝ) :
    Real.exp (a - max a b) * (1 / (Real.exp (a - max a b) + Real.exp (b - max a b))) = (1 + Real.exp (-(a - b)))⁻¹ := by
  have h1 : Real.exp (b - max a b) = Real.exp (a - max a b) * Real.exp (-(a - b)) := by
    rw [← Real.exp_add]; congr 1; ring
  have hp : 0 < Real.exp (a - max a b) := Real.exp_pos _
  have ht : 0 < Real.exp (-(a - b)) := Real.exp_pos _
  rw [h1]
  field_simp

/-- The hyperbolic tangent at the ideal instance takes real values everywhere. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Column 0 of the softmax of two real logits, spelt as the reference computes it (subtract the maximum, exponentiate,
    divide by the sum started from zero), is the logistic function of the logits' difference. -/
theorem softmax2_eq_logistic (a b : ℝ) :
    Ideal.div (Ideal.exp ((a : EReal) - ((max a b : ℝ) : EReal)))
        (0 + (Ideal.exp ((a : EReal) - ((max a b : ℝ) : EReal)) + Ideal.exp ((b : EReal) - ((max a b : ℝ) : EReal))))
      = Ideal.logistic ((a : EReal) - (b : EReal)) := by
  rw [← EReal.coe_sub, ← EReal.coe_sub, ← EReal.coe_sub, Ideal.exp_coe, Ideal.exp_coe, Ideal.logistic_coe, zero_add,
    ← EReal.coe_add]
  have hne : Real.exp (a - max a b) + Real.exp (b - max a b) ≠ 0 :=
    ne_of_gt (add_pos (Real.exp_pos _) (Real.exp_pos _))
  rw [Ideal.div_coe hne, ← EReal.coe_mul, softmax2_real]

/-- The difference of two affine forms in the same real coefficients is the affine form in the differences. -/
theorem affine_sub {K : ℕ} (t u v : Fin K → ℝ) (p q : ℝ) :
    (∑ k, (t k : EReal) * ((u k : EReal) - (v k : EReal))) + ((p : EReal) - (q : EReal))
      = ((∑ k, (t k : EReal) * (u k : EReal)) + (p : EReal)) - ((∑ k, (t k : EReal) * (v k : EReal)) + (q : EReal)) := by
  simp only [← EReal.coe_sub, ← EReal.coe_mul, ← coe_sum, ← EReal.coe_add]
  congr 1
  simp only [mul_sub, Finset.sum_sub_distrib]
  ring

end Cert.Pooling

end
-- ==== Proof.LibPlainDot.lean ====
/-
  GENERAL LEMMAS: a plain matrix product and a column broadcast, read at an index.

  * A plain matrix product [M, K] · [K, N] read at (p, q) is Σₖ l(p, k) · r(k, q): the contraction index of the
    dimension numbers is its one coordinate. Stated for ANY dimension-number record between such shapes whose operand
    indices are the plain ones, given as four hypotheses about coordinates (each is two lines for a printed record:
    the two contracted coordinates by the single-contracting-axis lemmas, the two free ones by unfolding the index).
  * A column [a, 1] broadcast along the second axis reads, at (p, c), the column's entry of row p.
-/
import Idealize.ShloMosaic.Lib.ValueIdx
import Idealize.ShloMosaic.Lib.Pipeline.Value
import Idealize.ShloMosaic.PureOps.Ideal.Laws

noncomputable section

namespace Cert.Pooling

open Idealize.ShloMosaic Idealize.ShloMosaic.ValueIdx

/-- A plain product's contraction sum at (p, q), re-indexed by the contracted coordinate. -/
theorem sum_contr_plain {M K N : ℕ} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val)
    (hl1 : ∀ i q, (d.lhsIdx i q 1).val = (q ⟨0, by omega⟩).val)
    (hr0 : ∀ i q, (d.rhsIdx i q 0).val = (q ⟨0, by omega⟩).val)
    (hr1 : ∀ i q, (d.rhsIdx i q 1).val = (i 1).val)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Pooling

end
-- ==== Proof.RowOps.lean ====
/-
  The two row functions of this kernel.

  * `attRow`: the attention weight of one node, logistic(Σₖ tanh(Σⱼ hⱼ·A(j,k) + b₁(k)) · w(k) + b₂).
  * The reference's softmax over the node's two logits, column 0, is `attRow` at the difference of the two
    columns of the second layer — for REAL second-layer weights (on the extended reals the difference of two
    sums is the sum of the differences only for finite entries).
  * `clsRow`: one row of the classifier, relu(relu(clip(x)·C₁ + c₁)·C₂ + c₂).
-/
import Idealize.ShloMosaic.Lib.ValueIdx
import Idealize.ShloMosaic.Lib.ValueLayout
import Idealize.ShloMosaic.Lib.Pipeline.Value
import Idealize.ShloMosaic.PureOps.Ideal.Laws
import proofs.«180667_j4002909520045_1_alg».proof.Proof.LibSoftmaxTwo
import proofs.«180667_j4002909520045_1_alg».proof.Proof.LibPlainDot

noncomputable section

namespace Cert.Pooling

open Idealize.ShloMosaic Idealize.ShloMosaic.ValueIdx

/-! ## The attention weight of one node -/

/-- The hidden layer of the attention network at one node: tanh of the affine form in the node's features. -/
def hidRow {D H : ℕ} (h : Fin D → EReal) (A : Fin D → Fin H → EReal) (b₁ : Fin H → EReal) (k : Fin H) : EReal :=
  Ideal.tanh ((∑ j, h j * A j k) + b₁ k)

/-- One logit: the affine form of the hidden layer in a column `w` of the second layer and its bias `b`. -/
def logitRow {D H : ℕ} (h : Fin D → EReal) (A : Fin D → Fin H → EReal) (b₁ : Fin H → EReal) (w : Fin H → EReal) (b : EReal) : EReal :=
  (∑ k, hidRow h A b₁ k * w k) + b

/-- The attention weight: the logistic function of one logit. -/
def attRow {D H : ℕ} (h : Fin D → EReal) (A : Fin D → Fin H → EReal) (b₁ : Fin H → EReal) (w : Fin H → EReal) (b : EReal) : EReal :=
  Ideal.logistic (logitRow h A b₁ w b)

/-- A logit with real second-layer entries is a real number. -/
theorem logitRow_real {D H : ℕ} (h : Fin D → EReal) (A : Fin D → Fin H → EReal) (b₁ : Fin H → EReal) (u : Fin H → ℝ) (p : ℝ) :
    ∃ t : Fin H → ℝ, (∀ k, hidRow h A b₁ k = (t k : EReal)) ∧
      logitRow h A b₁ (fun k => (u k : EReal)) (p : EReal) = (((∑ k, t k * u k) + p : ℝ) : EReal) := by
  choose t ht using fun k => tanh_real ((∑ j, h j * A j k) + b₁ k)
  refine ⟨t, fun k => ht k, ?_⟩
  unfold logitRow hidRow
  simp only [ht, ← EReal.coe_mul, ← coe_sum, ← EReal.coe_add]

/-- Column 0 of the softmax over a node's two logits — `M` their maximum, the exponentials' sum taken from 0 —
    is the attention weight at the DIFFERENCE of the second layer's two columns, for real second-layer entries. -/
theorem softmax0_eq_attRow {D H : ℕ} (h : Fin D → EReal) (A : Fin D → Fin H → EReal) (b₁ : Fin H → EReal)
    (u v : Fin H → ℝ) (p q : ℝ) (L₀ L₁ M : EReal)
    (h₀ : L₀ = logitRow h A b₁ (fun k => (u k : EReal)) (p : EReal))
    (h₁ : L₁ = logitRow h A b₁ (fun k => (v k : EReal)) (q : EReal)) (hM : M = max L₀ L₁) :
    Ideal.div (Ideal.exp (L₀ - M)) (0 + (Ideal.exp (L₀ - M) + Ideal.exp (L₁ - M)))
      = attRow h A b₁ (fun k => (u k : EReal) - (v k : EReal)) ((p : EReal) - (q : EReal)) := by
  choose t ht using fun k => tanh_real ((∑ j, h j * A j k) + b₁ k)
  have e₀ : L₀ = (((∑ k, t k * u k) + p : ℝ) : EReal) := by
    rw [h₀]; unfold logitRow hidRow; simp only [ht, ← EReal.coe_mul, ← coe_sum, ← EReal.coe_add]
  have e₁ : L₁ = (((∑ k, t k * v k) + q : ℝ) : EReal) := by
    rw [h₁]; unfold logitRow hidRow; simp only [ht, ← EReal.coe_mul, ← coe_sum, ← EReal.coe_add]
  have ed : logitRow h A b₁ (fun k => (u k : EReal) - (v k : EReal)) ((p : EReal) - (q : EReal)) = L₀ - L₁ := by
    rw [e₀, e₁]; unfold logitRow hidRow; simp only [ht]
    rw [affine_sub t u v p q]
    simp only [← EReal.coe_mul, ← coe_sum, ← EReal.coe_add]
  unfold attRow
  rw [ed, hM, e₀, e₁, ← EReal.coe_strictMono.monotone.map_max]
  exact softmax2_eq_logistic _ _

/-! ## One row of the classifier -/

/-- The clip's lower bound −100, its upper bound 100 and the relu's zero, as the printed words' values. -/
def cLo : EReal := Ideal.ofBits .f32 0xC2C80000#32
def cHi : EReal := Ideal.ofBits .f32 0x42C80000#32
def cZ : EReal := Ideal.ofBits .f32 0x00000000#32

/-- relu(relu(clip(x)·C₁ + c₁)·C₂ + c₂) at output column `q`, the clip's bounds and the relu's zero as parameters. -/
def clsRow {D H E : ℕ} (x : Fin D → EReal) (C₁ : Fin D → Fin H → EReal) (c₁ : Fin H → EReal)
    (C₂ : Fin H → Fin E → EReal) (c₂ : Fin E → EReal) (lo hi z : EReal) (q : Fin E) : EReal :=
  max ((∑ k, max ((∑ j, min hi (max lo (x j)) * C₁ j k) + c₁ k) z * C₂ k q) + c₂ q) z

end Cert.Pooling

end
-- ==== Proof.AttValue.lean ====
/-
  The attention call's value.

  One grid point t handles rows 2000·t … 2000·t + 1999 of the node features; the four weight operands are whole
  at every point. The body's stored block, at (p, q), is the node's attention weight times its feature q, where the
  weight is a function of the node's own row only: logistic(Σₖ tanh(Σⱼ h(p,j)·A(j,k) + b₁(k))·w(k) + b₂). So block t of
  the result is block t of ONE whole-array function of the operands, the blocks tile the [200000, 300] result, and
  the array after the region is that function.
-/
import proofs.«180667_j4002909520045_1_alg».proof.Proof.Gen.KernelIdeal.Frame
import proofs.«180667_j4002909520045_1_alg».proof.Proof.RowOps
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Att

open Cert.KernelIdeal Cert.KernelIdeal.Gen Cert.Pooling
open Idealize.ShloMosaic Idealize.ShloMosaic.TcCoe Idealize.SL.Sem Idealize.ShloMosaic.ValueIdx
open Idealize.ShloMosaic.Pipeline (Dat)

/-! ## The two products' operand indices -/

theorem dA_l0 (i q) : ((dot_S2000x300_S300x600_S2000x600_1_0_0_1_n_n).lhsIdx i q 0).val = (i 0).val := by
  unfold DotDims.lhsIdx
  rw [dif_neg (show ¬(0 : Fin S2000x300.rank) ∈ (dot_S2000x300_S300x600_S2000x600_1_0_0_1_n_n).lhsBatch by decide), dif_pos (show (0 : Fin S2000x300.rank) ∈ (dot_S2000x300_S300x600_S2000x600_1_0_0_1_n_n).lhsNonContracting by decide)]
  rfl
theorem dA_l1 (i q) : ((dot_S2000x300_S300x600_S2000x600_1_0_0_1_n_n).lhsIdx i q 1).val = (q ⟨0, by decide⟩).val :=
  (dot_S2000x300_S300x600_S2000x600_1_0_0_1_n_n).lhsIdx_val_of_single rfl i q
theorem dA_r0 (i q) : ((dot_S2000x300_S300x600_S2000x600_1_0_0_1_n_n).rhsIdx i q 0).val = (q ⟨0, by decide⟩).val :=
  (dot_S2000x300_S300x600_S2000x600_1_0_0_1_n_n).rhsIdx_val_of_single rfl i q
theorem dA_r1 (i q) : ((dot_S2000x300_S300x600_S2000x600_1_0_0_1_n_n).rhsIdx i q 1).val = (i 1).val := by
  unfold DotDims.rhsIdx
  rw [dif_neg (show ¬(1 : Fin S300x600.rank) ∈ (dot_S2000x300_S300x600_S2000x600_1_0_0_1_n_n).rhsBatch by decide), dif_pos (show (1 : Fin S300x600.rank) ∈ (dot_S2000x300_S300x600_S2000x600_1_0_0_1_n_n).rhsNonContracting by decide)]
  rfl

theorem dW_l0 (i q) : ((dot_S2000x600_S600x1_S2000x1_1_0_0_1_n_n).lhsIdx i q 0).val = (i 0).val := by
  unfold DotDims.lhsIdx
  rw [dif_neg (show ¬(0 : Fin S2000x600.rank) ∈ (dot_S2000x600_S600x1_S2000x1_1_0_0_1_n_n).lhsBatch by decide), dif_pos (show (0 : Fin S2000x600.rank) ∈ (dot_S2000x600_S600x1_S2000x1_1_0_0_1_n_n).lhsNonContracting by decide)]
  rfl
theorem dW_l1 (i q) : ((dot_S2000x600_S600x1_S2000x1_1_0_0_1_n_n).lhsIdx i q 1).val = (q ⟨0, by decide⟩).val :=
  (dot_S2000x600_S600x1_S2000x1_1_0_0_1_n_n).lhsIdx_val_of_single rfl i q
theorem dW_r0 (i q) : ((dot_S2000x600_S600x1_S2000x1_1_0_0_1_n_n).rhsIdx i q 0).val = (q ⟨0, by decide⟩).val :=
  (dot_S2000x600_S600x1_S2000x1_1_0_0_1_n_n).rhsIdx_val_of_single rfl i q
theorem dW_r1 (i q) : ((dot_S2000x600_S600x1_S2000x1_1_0_0_1_n_n).rhsIdx i q 1).val = (i 1).val := by
  unfold DotDims.rhsIdx
  rw [dif_neg (show ¬(1 : Fin S600x1.rank) ∈ (dot_S2000x600_S600x1_S2000x1_1_0_0_1_n_n).rhsBatch by decide), dif_pos (show (1 : Fin S600x1.rank) ∈ (dot_S2000x600_S600x1_S2000x1_1_0_0_1_n_n).rhsNonContracting by decide)]
  rfl

/-! ## The body's stored value at an index -/

/-- The stored block at (p, q): the attention weight of row p (a function of row p of the features and of the whole
    weight operands) times the feature (p, q). -/
theorem pay_at (x0 : Vec Ideal S2000x300 .f32) (x1 : Vec Ideal S300x600 .bf16) (x2 : Vec Ideal S600 .f32)
    (x3 : Vec Ideal S600x1 .bf16) (x4 : Vec Ideal S1x1 .f32) (p : Fin 2000) (q : Fin 300) :
    k0_pay1 (F := Ideal) x0 x1 x2 x3 x4 (ix2 p q)
      = attRow (fun j : Fin 300 => x0 (ix2 p j)) (fun (j : Fin 300) (k : Fin 600) => x1 (ix2 j k))
          (fun k : Fin 600 => x2 (ix1 k)) (fun k : Fin 600 => x3 (ix2 k (0 : Fin 1)))
          (x4 (ix2 (0 : Fin 1) (0 : Fin 1))) * x0 (ix2 p q) := by
  unfold k0_pay1
  show (broadcastTo S2000x300 _ broadcasts_S2000x1_S2000x300 (ix2 p q) : EReal) * x0 (ix2 p q) = _
  refine congrArg (· * x0 (ix2 p q)) ?_
  rw [broadcastTo_a1_ab_apply]
  unfold attRow logitRow
  refine congrArg Ideal.logistic ?_
  refine congrArg₂ (· + ·) ?_ ?_
  · -- the second product, into zero: Σₖ tanh(…)(p,k) · w(k,0)
    refine (Ideal.matmul_constant_zero_apply _ none _ _ _).trans ?_
    refine (sum_contr_plain _ rfl rfl dW_l0 dW_l1 dW_r0 dW_r1 _ _ p (0 : Fin 1)).trans ?_
    refine Finset.sum_congr rfl fun k _ => ?_
    simp only [shapeCast_self]
    refine congrArg₂ (· * ·) ?_ rfl
    unfold hidRow
    refine congrArg Ideal.tanh ?_
    refine congrArg₂ (· + ·) ?_ ?_
    · refine (Ideal.matmul_constant_zero_apply (φ₁ := .bf16) (φ₂ := .bf16) _ none _ _ _).trans ?_
      exact sum_contr_plain _ rfl rfl dA_l0 dA_l1 dA_r0 dA_r1 _ _ p k
    · rw [broadcastTo_1b_ab_apply, shapeCast_a_1a_apply]
  · -- the bias: the [1,1] operand broadcast down the column
    rw [broadcastTo_1b_ab_apply, shapeCast_self]

/-! ## From blocks to the array -/

theorem hz2 : (![0, 0] : Fin 2 → Nat) = fun _ => 0 := funext fun a => by fin_cases a <;> rfl
theorem hz1 : (![0] : Fin 1 → Nat) = fun _ => 0 := funext fun a => by fin_cases a; rfl

/-- The attention call's result as ONE function of its five operands, index by index. -/
def attArr (H : S200000x300.Idx → EReal) (A : S300x600.Idx → EReal) (B : S600.Idx → EReal) (W : S600x1.Idx → EReal)
    (Bd : S1x1.Idx → EReal) : S200000x300.Idx → EReal :=
  fun i => attRow (fun j : Fin 300 => H (ix2 (i 0) j)) (fun (j : Fin 300) (k : Fin 600) => A (ix2 j k))
    (fun k : Fin 600 => B (ix1 k)) (fun k : Fin 600 => W (ix2 k (0 : Fin 1))) (Bd (ix2 (0 : Fin 1) (0 : Fin 1))) * H i

/-- The printed index maps over the grid: the feature and result windows move one block of rows per point, the weight
    windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of the feature block at point t is row 2000·t + p of the feature array. -/
theorem blk_feat (c : Dev nD) (t : Fin cfg0.N) (p : Fin 2000) (j : Fin 300) (r : Fin 200000) (hr : r.val = t.val * 2000 + p.val) :
    (iblk0 V c 0 t : Vec Ideal S2000x300 .f32) (ix2 p j) = (V c main_arg0 : S200000x300.Idx → EReal) (ix2 r j) := by
  obtain ⟨e00, e01, -⟩ := idx_facts t
  unfold iblk0
  rw [View.read_apply]
  show (V c main_arg0 : S200000x300.Idx → EReal) _ = _
  congr 1
  funext a
  apply Fin.ext
  match a with
  | ⟨0, _⟩ => show win0_0.index t (0 : Fin 2) * 2000 + 1 * p.val = r.val; rw [e00, hr]; omega
  | ⟨1, _⟩ => show win0_0.index t (1 : Fin 2) * 300 + 1 * j.val = j.val; rw [e01]; omega

/-- The first-layer weight block is the whole operand. -/
theorem blk_A (c : Dev nD) (t : Fin cfg0.N) (j : Fin 300) (k : Fin 600) :
    (iblk0 V c 1 t : Vec Ideal S300x600 .bf16) (ix2 j k) = (V c main_v10 : S300x600.Idx → EReal) (ix2 j k) := by
  obtain ⟨-, -, e10, e11, -⟩ := idx_facts t
  unfold iblk0
  rw [View.read_apply]
  show (V c main_v10 : S300x600.Idx → EReal) _ = _
  congr 1
  funext a
  apply Fin.ext
  match a with
  | ⟨0, _⟩ => show win0_1.index t (0 : Fin 2) * 300 + 1 * j.val = j.val; rw [e10]; omega
  | ⟨1, _⟩ => show win0_1.index t (1 : Fin 2) * 600 + 1 * k.val = k.val; rw [e11]; omega

/-- The first-layer bias block is the whole operand. -/
theorem blk_B (c : Dev nD) (t : Fin cfg0.N) (k : Fin 600) :
    (iblk0 V c 2 t : Vec Ideal S600 .f32) (ix1 k) = (V c main_arg4 : S600.Idx → EReal) (ix1 k) := by
  obtain ⟨-, -, -, -, e20, -⟩ := idx_facts t
  unfold iblk0
  rw [View.read_apply]
  show (V c main_arg4 : S600.Idx → EReal) _ = _
  congr 1
  funext a
  apply Fin.ext
  match a with
  | ⟨0, _⟩ => show win0_2.index t (0 : Fin 1) * 600 + 1 * k.val = k.val; rw [e20]; omega

/-- The second-layer weight block is the whole operand. -/
theorem blk_W (c : Dev nD) (t : Fin cfg0.N) (k : Fin 600) (z : Fin 1) :
    (iblk0 V c 3 t : Vec Ideal S600x1 .bf16) (ix2 k z) = (V c main_v20 : S600x1.Idx → EReal) (ix2 k z) := by
  obtain ⟨-, -, -, -, -, e30, e31, -⟩ := idx_facts t
  unfold iblk0
  rw [View.read_apply]
  show (V c main_v20 : S600x1.Idx → EReal) _ = _
  congr 1
  funext a
  apply Fin.ext
  match a with
  | ⟨0, _⟩ => show win0_3.index t (0 : Fin 2) * 600 + 1 * k.val = k.val; rw [e30]; omega
  | ⟨1, _⟩ => show win0_3.index t (1 : Fin 2) * 1 + 1 * z.val = z.val; rw [e31]; omega

/-- The second-layer bias block is the whole operand. -/
theorem blk_Bd (c : Dev nD) (t : Fin cfg0.N) (y z : Fin 1) :
    (iblk0 V c 4 t : Vec Ideal S1x1 .f32) (ix2 y z) = (V c main_v19 : S1x1.Idx → EReal) (ix2 y z) := by
  obtain ⟨-, -, -, -, -, -, -, e40, e41, -⟩ := idx_facts t
  unfold iblk0
  rw [View.read_apply]
  show (V c main_v19 : S1x1.Idx → EReal) _ = _
  congr 1
  funext a
  apply Fin.ext
  match a with
  | ⟨0, _⟩ => show win0_4.index t (0 : Fin 2) * 1 + 1 * y.val = y.val; rw [e40]; omega
  | ⟨1, _⟩ => show win0_4.index t (1 : Fin 2) * 1 + 1 * z.val = z.val; rw [e41]; omega

/-- What point t writes back is block t of `attArr` of the operands as the region finds them. -/
theorem flushed_eq (c : Dev nD) (t : Fin cfg0.N) :
    (dat0 V c).flushed 5 t = ((cfg0.win 5).blk t).view.read (Elt Ideal)
      (attArr (V c main_arg0) (V c main_v10) (V c main_arg4) (V c main_v20) (V c main_v19)) := by
  show (cfg0.win 5).cut (grid0.coords t) ((dat0 V c).after 5 t) = _
  rw [after0_5]
  unfold out0_5
  rw [View.canon_unit_zero hz2]
  simp only [View.ld_unit_zero (S := S2000x300) hz2, View.ld_unit_zero (S := S300x600) hz2, View.ld_unit_zero (S := S600) hz1,
    View.ld_unit_zero (S := S600x1) hz2, View.ld_unit_zero (S := S1x1) hz2]
  obtain ⟨-, -, -, -, -, -, -, -, -, e50, e51⟩ := idx_facts t
  funext y
  obtain ⟨p, q, rfl⟩ : ∃ (p : Fin 2000) (q : Fin 300), y = ix2 p q := ⟨y 0, y 1, eq_ix2 y⟩
  have hlt : t.val * 2000 + p.val < 200000 := by
    have h1 : t.val < 100 := Nat.lt_of_lt_of_eq t.isLt (show cfg0.N = 100 from N_0)
    have := p.isLt; omega
  refine (pay_at _ _ _ _ _ p q).trans ?_
  rw [View.read_apply]
  have hemb : ((cfg0.win 5).blk t).view.emb (ix2 p q) = (ix2 (⟨t.val * 2000 + p.val, hlt⟩ : Fin 200000) q : S200000x300.Idx) := by
    funext a
    apply Fin.ext
    match a with
    | ⟨0, _⟩ => show win0_5.index t (0 : Fin 2) * 2000 + 1 * p.val = t.val * 2000 + p.val; rw [e50]; omega
    | ⟨1, _⟩ => show win0_5.index t (1 : Fin 2) * 300 + 1 * q.val = q.val; rw [e51]; omega
  rw [hemb]
  unfold attArr
  simp only [blk_feat V c t p _ ⟨t.val * 2000 + p.val, hlt⟩ rfl, blk_A V c t, blk_B V c t, blk_W V c t, blk_Bd V c t]
  rfl

/-- Every index of the result is in some point's block: row r is in block r / 2000. -/
theorem cover (i : S200000x300.Idx) :
    ∃ t : Fin cfg0.N, (cfg0.win 5).flush t = true ∧ i ∈ ((cfg0.win 5).blk t).view.set := by
  have hi0 : (i 0).val < 200000 := (i 0).isLt
  have hi1 : (i 1).val < 300 := (i 1).isLt
  have hN : cfg0.N = 100 := N_0
  let t : Fin cfg0.N := ⟨(i 0).val / 2000, by rw [hN]; omega⟩
  obtain ⟨-, -, -, -, -, -, -, -, -, e50, e51⟩ := idx_facts t
  refine ⟨t, flush0_5 t, ?_⟩
  show i ∈ ((View.whole main_v21).slice (win0_5.rect t)).set
  rw [View.set_slice_whole, Rect.mem_set_unit]
  intro a
  match a with
  | ⟨0, _⟩ =>
    show win0_5.index t (0 : Fin 2) * 2000 ≤ (i 0).val ∧ (i 0).val < win0_5.index t (0 : Fin 2) * 2000 + 2000
    rw [e50]; show (i 0).val / 2000 * 2000 ≤ (i 0).val ∧ (i 0).val < (i 0).val / 2000 * 2000 + 2000; omega
  | ⟨1, _⟩ =>
    show win0_5.index t (1 : Fin 2) * 300 ≤ (i 1).val ∧ (i 1).val < win0_5.index t (1 : Fin 2) * 300 + 300
    rw [e51]; omega

/-- The result array after the region is `attArr` of the operands as the region finds them. -/
theorem final (c : Dev nD) :
    (dat0 V c).arrAt 5 cfg0.N = attArr (V c main_arg0) (V c main_v10) (V c main_arg4) (V c main_v20) (V c main_v19) :=
  (dat0 V c).arrAt_eq_of_cover 5 _ (fun t _ => flushed_eq V c t) cover

end Cert.KernelIdeal.Att

end
-- ==== Proof.ClsValue.lean ====
/-
  The classifier call's value.

  One grid point t handles rows 1000·t … 1000·t + 999 of the pooled graph features; the four weight operands are
  whole at every point. The stored block at (p, q) is a function of row p of the pooled features only:
  relu(Σₖ relu(Σⱼ clip(x(p,j))·C₁(j,k) + c₁(k))·C₂(k,q) + c₂(q)), the clip to [−100, 100]. So block t of the result is
  block t of ONE whole-array function of the operands, the two blocks tile the [2000, 300] result, and the array
  after the region is that function.
-/
import proofs.«180667_j4002909520045_1_alg».proof.Proof.Gen.KernelIdeal.Frame
import proofs.«180667_j4002909520045_1_alg».proof.Proof.RowOps
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Cls

open Cert.KernelIdeal Cert.KernelIdeal.Gen Cert.Pooling
open Idealize.ShloMosaic Idealize.ShloMosaic.TcCoe Idealize.SL.Sem Idealize.ShloMosaic.ValueIdx
open Idealize.ShloMosaic.Pipeline (Dat)

/-! ## The two products' operand indices -/

theorem dC1_l0 (i q) : ((dot_S1000x300_S300x600_S1000x600_1_0_0_1_n_n).lhsIdx i q 0).val = (i 0).val := by
  unfold DotDims.lhsIdx
  rw [dif_neg (show ¬(0 : Fin S1000x300.rank) ∈ (dot_S1000x300_S300x600_S1000x600_1_0_0_1_n_n).lhsBatch by decide), dif_pos (show (0 : Fin S1000x300.rank) ∈ (dot_S1000x300_S300x600_S1000x600_1_0_0_1_n_n).lhsNonContracting by decide)]
  rfl
theorem dC1_l1 (i q) : ((dot_S1000x300_S300x600_S1000x600_1_0_0_1_n_n).lhsIdx i q 1).val = (q ⟨0, by decide⟩).val :=
  (dot_S1000x300_S300x600_S1000x600_1_0_0_1_n_n).lhsIdx_val_of_single rfl i q
theorem dC1_r0 (i q) : ((dot_S1000x300_S300x600_S1000x600_1_0_0_1_n_n).rhsIdx i q 0).val = (q ⟨0, by decide⟩).val :=
  (dot_S1000x300_S300x600_S1000x600_1_0_0_1_n_n).rhsIdx_val_of_single rfl i q
theorem dC1_r1 (i q) : ((dot_S1000x300_S300x600_S1000x600_1_0_0_1_n_n).rhsIdx i q 1).val = (i 1).val := by
  unfold DotDims.rhsIdx
  rw [dif_neg (show ¬(1 : Fin S300x600.rank) ∈ (dot_S1000x300_S300x600_S1000x600_1_0_0_1_n_n).rhsBatch by decide), dif_pos (show (1 : Fin S300x600.rank) ∈ (dot_S1000x300_S300x600_S1000x600_1_0_0_1_n_n).rhsNonContracting by decide)]
  rfl

theorem dC2_l0 (i q) : ((dot_S1000x600_S600x300_S1000x300_1_0_0_1_n_n).lhsIdx i q 0).val = (i 0).val := by
  unfold DotDims.lhsIdx
  rw [dif_neg (show ¬(0 : Fin S1000x600.rank) ∈ (dot_S1000x600_S600x300_S1000x300_1_0_0_1_n_n).lhsBatch by decide), dif_pos (show (0 : Fin S1000x600.rank) ∈ (dot_S1000x600_S600x300_S1000x300_1_0_0_1_n_n).lhsNonContracting by decide)]
  rfl
theorem dC2_l1 (i q) : ((dot_S1000x600_S600x300_S1000x300_1_0_0_1_n_n).lhsIdx i q 1).val = (q ⟨0, by decide⟩).val :=
  (dot_S1000x600_S600x300_S1000x300_1_0_0_1_n_n).lhsIdx_val_of_single rfl i q
theorem dC2_r0 (i q) : ((dot_S1000x600_S600x300_S1000x300_1_0_0_1_n_n).rhsIdx i q 0).val = (q ⟨0, by decide⟩).val :=
  (dot_S1000x600_S600x300_S1000x300_1_0_0_1_n_n).rhsIdx_val_of_single rfl i q
theorem dC2_r1 (i q) : ((dot_S1000x600_S600x300_S1000x300_1_0_0_1_n_n).rhsIdx i q 1).val = (i 1).val := by
  unfold DotDims.rhsIdx
  rw [dif_neg (show ¬(1 : Fin S600x300.rank) ∈ (dot_S1000x600_S600x300_S1000x300_1_0_0_1_n_n).rhsBatch by decide), dif_pos (show (1 : Fin S600x300.rank) ∈ (dot_S1000x600_S600x300_S1000x300_1_0_0_1_n_n).rhsNonContracting by decide)]
  rfl

/-! ## The body's stored value at an index -/

/-- The stored block at (p, q): the classifier's output q on row p of the pooled features. -/
theorem pay_at (x0 : Vec Ideal S1000x300 .f32) (x7 : Vec Ideal S300x600 .bf16) (x10 : Vec Ideal S600 .f32)
    (x17 : Vec Ideal S600x300 .bf16) (x20 : Vec Ideal S300 .f32) (p : Fin 1000) (q : Fin 300) :
    k1_pay1 (F := Ideal) x0 x7 x10 x17 x20 (ix2 p q)
      = clsRow (fun j : Fin 300 => x0 (ix2 p j)) (fun (j : Fin 300) (k : Fin 600) => x7 (ix2 j k))
          (fun k : Fin 600 => x10 (ix1 k)) (fun (k : Fin 600) (e : Fin 300) => x17 (ix2 k e))
          (fun e : Fin 300 => x20 (ix1 e)) cLo cHi cZ q := by
  unfold k1_pay1 clsRow
  refine congrArg (fun v => max v cZ) ?_
  refine congrArg₂ (· + ·) ?_ ?_
  · refine (Ideal.matmul_constant_zero_apply _ none _ _ _).trans ?_
    refine (sum_contr_plain _ rfl rfl dC2_l0 dC2_l1 dC2_r0 dC2_r1 _ _ p q).trans ?_
    refine Finset.sum_congr rfl fun k _ => ?_
    simp only [shapeCast_self]
    refine congrArg₂ (· * ·) ?_ rfl
    refine congrArg (fun v => max v cZ) ?_
    refine congrArg₂ (· + ·) ?_ ?_
    · refine (Ideal.matmul_constant_zero_apply (φ₁ := .bf16) (φ₂ := .bf16) _ none _ _ _).trans ?_
      exact sum_contr_plain _ rfl rfl dC1_l0 dC1_l1 dC1_r0 dC1_r1 _ _ p k
    · rw [broadcastTo_1b_ab_apply, shapeCast_a_1a_apply]
  · rw [broadcastTo_1b_ab_apply, shapeCast_a_1a_apply]

/-! ## From blocks to the array -/

theorem hz2 : (![0, 0] : Fin 2 → Nat) = fun _ => 0 := funext fun a => by fin_cases a <;> rfl
theorem hz1 : (![0] : Fin 1 → Nat) = fun _ => 0 := funext fun a => by fin_cases a; rfl

/-- The classifier call's result as ONE function of its five operands, index by index. -/
def clsArr (X : S2000x300.Idx → EReal) (C₁ : S300x600.Idx → EReal) (c₁ : S600.Idx → EReal) (C₂ : S600x300.Idx → EReal)
    (c₂ : S300.Idx → EReal) : S2000x300.Idx → EReal :=
  fun i => clsRow (fun j : Fin 300 => X (ix2 (i 0) j)) (fun (j : Fin 300) (k : Fin 600) => C₁ (ix2 j k))
    (fun k : Fin 600 => c₁ (ix1 k)) (fun (k : Fin 600) (e : Fin 300) => C₂ (ix2 k e)) (fun e : Fin 300 => c₂ (ix1 e))
    cLo cHi cZ (i 1)

/-- The printed index maps over the grid: the pooled-feature and result windows move one block of rows per point,
    the weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row p of the pooled-feature block at point t is row 1000·t + p of the pooled-feature array. -/
theorem blk_X (c : Dev nD) (t : Fin cfg1.N) (p : Fin 1000) (j : Fin 300) (r : Fin 2000) (hr : r.val = t.val * 1000 + p.val) :
    (iblk1 V c 0 t : Vec Ideal S1000x300 .f32) (ix2 p j) = (V c main_v26 : S2000x300.Idx → EReal) (ix2 r j) := by
  obtain ⟨e00, e01, -⟩ := idx_facts t
  unfold iblk1
  rw [View.read_apply]
  show (V c main_v26 : S2000x300.Idx → EReal) _ = _
  congr 1
  funext a
  apply Fin.ext
  match a with
  | ⟨0, _⟩ => show win1_0.index t (0 : Fin 2) * 1000 + 1 * p.val = r.val; rw [e00, hr]; omega
  | ⟨1, _⟩ => show win1_0.index t (1 : Fin 2) * 300 + 1 * j.val = j.val; rw [e01]; omega

/-- The first-layer weight block is the whole operand. -/
theorem blk_C1 (c : Dev nD) (t : Fin cfg1.N) (j : Fin 300) (k : Fin 600) :
    (iblk1 V c 1 t : Vec Ideal S300x600 .bf16) (ix2 j k) = (V c main_v27 : S300x600.Idx → EReal) (ix2 j k) := by
  obtain ⟨-, -, e10, e11, -⟩ := idx_facts t
  unfold iblk1
  rw [View.read_apply]
  show (V c main_v27 : S300x600.Idx → EReal) _ = _
  congr 1
  funext a
  apply Fin.ext
  match a with
  | ⟨0, _⟩ => show win1_1.index t (0 : Fin 2) * 300 + 1 * j.val = j.val; rw [e10]; omega
  | ⟨1, _⟩ => show win1_1.index t (1 : Fin 2) * 600 + 1 * k.val = k.val; rw [e11]; omega

/-- The first-layer bias block is the whole operand. -/
theorem blk_c1 (c : Dev nD) (t : Fin cfg1.N) (k : Fin 600) :
    (iblk1 V c 2 t : Vec Ideal S600 .f32) (ix1 k) = (V c main_arg8 : S600.Idx → EReal) (ix1 k) := by
  obtain ⟨-, -, -, -, e20, -⟩ := idx_facts t
  unfold iblk1
  rw [View.read_apply]
  show (V c main_arg8 : S600.Idx → EReal) _ = _
  congr 1
  funext a
  apply Fin.ext
  match a with
  | ⟨0, _⟩ => show win1_2.index t (0 : Fin 1) * 600 + 1 * k.val = k.val; rw [e20]; omega

/-- The second-layer weight block is the whole operand. -/
theorem blk_C2 (c : Dev nD) (t : Fin cfg1.N) (k : Fin 600) (e : Fin 300) :
    (iblk1 V c 3 t : Vec Ideal S600x300 .bf16) (ix2 k e) = (V c main_v28 : S600x300.Idx → EReal) (ix2 k e) := by
  obtain ⟨-, -, -, -, -, e30, e31, -⟩ := idx_facts t
  unfold iblk1
  rw [View.read_apply]
  show (V c main_v28 : S600x300.Idx → EReal) _ = _
  congr 1
  funext a
  apply Fin.ext
  match a with
  | ⟨0, _⟩ => show win1_3.index t (0 : Fin 2) * 600 + 1 * k.val = k.val; rw [e30]; omega
  | ⟨1, _⟩ => show win1_3.index t (1 : Fin 2) * 300 + 1 * e.val = e.val; rw [e31]; omega

/-- The second-layer bias block is the whole operand. -/
theorem blk_c2 (c : Dev nD) (t : Fin cfg1.N) (e : Fin 300) :
    (iblk1 V c 4 t : Vec Ideal S300 .f32) (ix1 e) = (V c main_arg10 : S300.Idx → EReal) (ix1 e) := by
  obtain ⟨-, -, -, -, -, -, -, e40, -⟩ := idx_facts t
  unfold iblk1
  rw [View.read_apply]
  show (V c main_arg10 : S300.Idx → EReal) _ = _
  congr 1
  funext a
  apply Fin.ext
  match a with
  | ⟨0, _⟩ => show win1_4.index t (0 : Fin 1) * 300 + 1 * e.val = e.val; rw [e40]; omega

/-- What point t writes back is block t of `clsArr` of the operands as the region finds them. -/
theorem flushed_eq (c : Dev nD) (t : Fin cfg1.N) :
    (dat1 V c).flushed 5 t = ((cfg1.win 5).blk t).view.read (Elt Ideal)
      (clsArr (V c main_v26) (V c main_v27) (V c main_arg8) (V c main_v28) (V c main_arg10)) := by
  show (cfg1.win 5).cut (grid1.coords t) ((dat1 V c).after 5 t) = _
  rw [after1_5]
  unfold out1_5
  rw [View.canon_unit_zero hz2]
  simp only [View.ld_unit_zero (S := S1000x300) hz2, View.ld_unit_zero (S := S300x600) hz2, View.ld_unit_zero (S := S600) hz1,
    View.ld_unit_zero (S := S600x300) hz2, View.ld_unit_zero (S := S300) hz1]
  obtain ⟨-, -, -, -, -, -, -, -, e50, e51⟩ := idx_facts t
  funext y
  obtain ⟨p, q, rfl⟩ : ∃ (p : Fin 1000) (q : Fin 300), y = ix2 p q := ⟨y 0, y 1, eq_ix2 y⟩
  have hlt : t.val * 1000 + p.val < 2000 := by
    have h1 : t.val < 2 := Nat.lt_of_lt_of_eq t.isLt (show cfg1.N = 2 from N_1)
    have := p.isLt; omega
  refine (pay_at _ _ _ _ _ p q).trans ?_
  rw [View.read_apply]
  have hemb : ((cfg1.win 5).blk t).view.emb (ix2 p q) = (ix2 (⟨t.val * 1000 + p.val, hlt⟩ : Fin 2000) q : S2000x300.Idx) := by
    funext a
    apply Fin.ext
    match a with
    | ⟨0, _⟩ => show win1_5.index t (0 : Fin 2) * 1000 + 1 * p.val = t.val * 1000 + p.val; rw [e50]; omega
    | ⟨1, _⟩ => show win1_5.index t (1 : Fin 2) * 300 + 1 * q.val = q.val; rw [e51]; omega
  rw [hemb]
  unfold clsArr
  simp only [blk_X V c t p _ ⟨t.val * 1000 + p.val, hlt⟩ rfl, blk_C1 V c t, blk_c1 V c t, blk_C2 V c t, blk_c2 V c t]
  rfl

/-- Every index of the result is in some point's block: row r is in block r / 1000. -/
theorem cover (i : S2000x300.Idx) :
    ∃ t : Fin cfg1.N, (cfg1.win 5).flush t = true ∧ i ∈ ((cfg1.win 5).blk t).view.set := by
  have hi0 : (i 0).val < 2000 := (i 0).isLt
  have hi1 : (i 1).val < 300 := (i 1).isLt
  have hN : cfg1.N = 2 := N_1
  let t : Fin cfg1.N := ⟨(i 0).val / 1000, by rw [hN]; omega⟩
  obtain ⟨-, -, -, -, -, -, -, -, e50, e51⟩ := idx_facts t
  refine ⟨t, flush1_5 t, ?_⟩
  show i ∈ ((View.whole main_v29).slice (win1_5.rect t)).set
  rw [View.set_slice_whole, Rect.mem_set_unit]
  intro a
  match a with
  | ⟨0, _⟩ =>
    show win1_5.index t (0 : Fin 2) * 1000 ≤ (i 0).val ∧ (i 0).val < win1_5.index t (0 : Fin 2) * 1000 + 1000
    rw [e50]; show (i 0).val / 1000 * 1000 ≤ (i 0).val ∧ (i 0).val < (i 0).val / 1000 * 1000 + 1000; omega
  | ⟨1, _⟩ =>
    show win1_5.index t (1 : Fin 2) * 300 ≤ (i 1).val ∧ (i 1).val < win1_5.index t (1 : Fin 2) * 300 + 300
    rw [e51]; omega

/-- The result array after the region is `clsArr` of the operands as the region finds them. -/
theorem final (c : Dev nD) :
    (dat1 V c).arrAt 5 cfg1.N = clsArr (V c main_v26) (V c main_v27) (V c main_arg8) (V c main_v28) (V c main_arg10) :=
  (dat1 V c).arrAt_eq_of_cover 5 _ (fun t _ => flushed_eq V c t) cover

end Cert.KernelIdeal.Cls

end
-- ==== Proof.KernelValue.lean ====
/-
  The idealized kernel's result as one function of @main's arguments.

  The last boundary's contents at the result buffer are what the classifier call leaves: `clsArr` of its operands as
  that call finds them. Those operands are the host operations between the calls applied to what the attention call
  left: the pooled features are the segment sum, by graph id, of the attention call's result times the validity
  column; the attention call's result is `attArr` of ITS operands, which the host operations before it compute from
  the arguments (the difference of the second layer's two columns and of its two biases, the validity column from
  the edge list). Everything else is an argument, read back unchanged.
-/
import proofs.«180667_j4002909520045_1_alg».proof.Proof.KernelRun
import proofs.«180667_j4002909520045_1_alg».proof.Proof.AttValue
import proofs.«180667_j4002909520045_1_alg».proof.Proof.ClsValue
import Idealize.ShloMosaic.Lib.StableHlo.Run
import Idealize.ShloMosaic.PureOps.Ideal

set_option maxRecDepth 16384

noncomputable section

namespace Cert.KernelIdeal.Valued

open Cert.KernelIdeal Cert.KernelIdeal.Gen Cert.Pooling
open Idealize.ShloMosaic Idealize.ShloMosaic.TcCoe Idealize.SL.Sem Idealize.ShloMosaic.StableHlo

/-! ## The host operations as functions of the arguments -/

/-- The validity column: 1 for a node with an outgoing edge (its count in the edge list's first row is not 0), else 0. -/
def validCol (E : IVec S2x3200000 32) : FVec Ideal S200000x1 .f32 :=
  broadcastInDim S200000x1 ![0] bcast_S200000_S200000x1_0
    (uitofp .f32 (cmpf (F := Ideal) .une
      (Host.scatterAdd scatter_S200000_S3200000x1_S3200000_n_0_0_1
        (broadcastInDim S200000 ![] bcast_S_S200000 (constant (F := Ideal) S_ .f32 0x00000000#32))
        (broadcastInDim S3200000x1 ![0] bcast_S3200000_S3200000x1_0
          (shapeCast _ (extractStridedSlice S1x3200000 ![0, 0] E slices_S2x3200000_S1x3200000_0_0) shapeCasts_S1x3200000_S3200000))
        (broadcastInDim S3200000 ![] bcast_S_S3200000 (constant (F := Ideal) S_ .f32 0x3F800000#32)))
      (broadcastInDim S200000 ![] bcast_S_S200000 (constant (F := Ideal) S_ .f32 0x00000000#32))))

/-- The second layer's weight operand: column 0 minus column 1 of the [600, 2] weights. -/
def wDiff (W : FVec Ideal S600x2 .f32) : FVec Ideal S600x1 .bf16 :=
  truncf .bf16 (subf (extractStridedSlice S600x1 ![0, 0] W slices_S600x2_S600x1_0_0)
    (extractStridedSlice S600x1 ![0, 1] W slices_S600x2_S600x1_0_1)) bitsLt_bf16_f32

/-- The second layer's bias operand: entry 0 minus entry 1 of the [2] biases, as a [1, 1] array. -/
def bDiff (B : FVec Ideal S2 .f32) : FVec Ideal S1x1 .f32 :=
  shapeCast _ (subf (shapeCast _ (extractStridedSlice S1 ![0] B slices_S2_S1_0) shapeCasts_S1_S_)
    (shapeCast _ (extractStridedSlice S1 ![1] B slices_S2_S1_1) shapeCasts_S1_S_)) shapeCasts_S_S1x1

/-- The pooled features: the segment sum by graph id of the weighted node features times the validity column. -/
def pooled (att : FVec Ideal S200000x300 .f32) (ids : IVec S200000 32) (valid : FVec Ideal S200000x1 .f32) : FVec Ideal S2000x300 .f32 :=
  Host.scatterAdd scatter_S2000x300_S200000x1_S200000x300_1_0_0_1
    (broadcastInDim S2000x300 ![] bcast_S_S2000x300 (constant (F := Ideal) S_ .f32 0x00000000#32))
    (broadcastInDim S200000x1 ![0] bcast_S200000_S200000x1_0 ids)
    (mulf att (broadcastInDim S200000x300 ![0, 1] bcast_S200000x1_S200000x300_0_1 valid))

variable (m : (ℓ : Loc nD τ sig) → Buf (Elt Ideal) ℓ) (ρ : Dev nD → PrngReg)

/-! ## The attention call's operands, as it finds them -/

theorem V1_arg0 (c : Dev nD) : V1 m ρ c main_arg0 = m ((c : Thread nD τ).loc main_arg0) := by
  show StableHlo.after hostOps0 (W0 m ρ c) (Proc.devRef .tc main_arg0) = _
  after_results
theorem V1_arg4 (c : Dev nD) : V1 m ρ c main_arg4 = m ((c : Thread nD τ).loc main_arg4) := by
  show StableHlo.after hostOps0 (W0 m ρ c) (Proc.devRef .tc main_arg4) = _
  after_results
theorem V1_v10 (c : Dev nD) : @Eq (FVec Ideal S300x600 .bf16) (V1 m ρ c main_v10)
    (truncf .bf16 (m ((c : Thread nD τ).loc main_arg3) : FVec Ideal S300x600 .f32) bitsLt_bf16_f32) := by
  show StableHlo.after hostOps0 (W0 m ρ c) (Proc.devRef .tc main_v10) = _
  after_results
  all_goals rfl
theorem V1_v20 (c : Dev nD) : @Eq (FVec Ideal S600x1 .bf16) (V1 m ρ c main_v20)
    (wDiff (m ((c : Thread nD τ).loc main_arg5) : FVec Ideal S600x2 .f32)) := by
  show StableHlo.after hostOps0 (W0 m ρ c) (Proc.devRef .tc main_v20) = _
  after_results
  all_goals rfl
theorem V1_v19 (c : Dev nD) : @Eq (FVec Ideal S1x1 .f32) (V1 m ρ c main_v19)
    (bDiff (m ((c : Thread nD τ).loc main_arg6) : FVec Ideal S2 .f32)) := by
  show StableHlo.after hostOps0 (W0 m ρ c) (Proc.devRef .tc main_v19) = _
  after_results
  all_goals rfl
theorem V1_v9 (c : Dev nD) : @Eq (FVec Ideal S200000x1 .f32) (W1 m ρ c (Proc.devRef .tc main_v9))
    (validCol (m ((c : Thread nD τ).loc main_arg2) : IVec S2x3200000 32)) := by
  show StableHlo.after hostOps0 (W0 m ρ c) (Proc.devRef .tc main_v9) = _
  after_results
  all_goals rfl

/-! ## What the attention call leaves, and what the host operations after it see -/

theorem W2_v21 (c : Dev nD) : @Eq (FVec Ideal S200000x300 .f32) (W2 m ρ c (Proc.devRef .tc main_v21))
    (Att.attArr (m ((c : Thread nD τ).loc main_arg0)) (truncf (F := Ideal) .bf16 ((m ((c : Thread nD τ).loc main_arg3)) : FVec Ideal S300x600 .f32) bitsLt_bf16_f32)
      (m ((c : Thread nD τ).loc main_arg4)) (wDiff (m ((c : Thread nD τ).loc main_arg5))) (bDiff (m ((c : Thread nD τ).loc main_arg6)))) := by
  have h := (W2_arr m ρ c 5).trans (Att.final (V1 m ρ) c)
  rw [V1_arg0, V1_v10, V1_arg4, V1_v20, V1_v19] at h
  exact h

theorem W2_v9 (c : Dev nD) : @Eq (FVec Ideal S200000x1 .f32) (W2 m ρ c (Proc.devRef .tc main_v9))
    (validCol (m ((c : Thread nD τ).loc main_arg2))) :=
  (W2_of_ne m ρ c main_v9 (by decide)).trans (V1_v9 m ρ c)

theorem W2_arg1 (c : Dev nD) : W2 m ρ c (Proc.devRef .tc main_arg1) = (m ((c : Thread nD τ).loc main_arg1)) := by
  refine (W2_of_ne m ρ c main_arg1 (by decide)).trans ?_
  show StableHlo.after hostOps0 (W0 m ρ c) (Proc.devRef .tc main_arg1) = _
  after_results
theorem W2_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results
theorem W2_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results
theorem W2_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results
theorem W2_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results

/-! ## The classifier call's operands, as it finds them -/

theorem V3_v26 (c : Dev nD) : @Eq (FVec Ideal S2000x300 .f32) (V3 m ρ c main_v26)
    (pooled (W2 m ρ c (Proc.devRef .tc main_v21)) (W2 m ρ c (Proc.devRef .tc main_arg1)) (W2 m ρ c (Proc.devRef .tc main_v9))) := by
  show StableHlo.after hostOps1 (W2 m ρ c) (Proc.devRef .tc main_v26) = _
  after_results
  all_goals rfl
theorem V3_v27 (c : Dev nD) : @Eq (FVec Ideal S300x600 .bf16) (V3 m ρ c main_v27)
    (truncf .bf16 (W2 m ρ c (Proc.devRef .tc main_arg7) : FVec Ideal S300x600 .f32) bitsLt_bf16_f32) := by
  show StableHlo.after hostOps1 (W2 m ρ c) (Proc.devRef .tc main_v27) = _
  after_results
  all_goals rfl
theorem V3_v28 (c : Dev nD) : @Eq (FVec Ideal S600x300 .bf16) (V3 m ρ c main_v28)
    (truncf .bf16 (W2 m ρ c (Proc.devRef .tc main_arg9) : FVec Ideal S600x300 .f32) bitsLt_bf16_f32) := by
  show StableHlo.after hostOps1 (W2 m ρ c) (Proc.devRef .tc main_v28) = _
  after_results
  all_goals rfl
theorem V3_arg8 (c : Dev nD) : V3 m ρ c main_arg8 = W2 m ρ c (Proc.devRef .tc main_arg8) := by
  show StableHlo.after hostOps1 (W2 m ρ c) (Proc.devRef .tc main_arg8) = _
  after_results
theorem V3_arg10 (c : Dev nD) : V3 m ρ c main_arg10 = W2 m ρ c (Proc.devRef .tc main_arg10) := by
  show StableHlo.after hostOps1 (W2 m ρ c) (Proc.devRef .tc main_arg10) = _
  after_results

/-! ## The result -/

/-- The idealized kernel's result as a function of the eleven arguments. -/
def kernelOut (a0 : FVec Ideal S200000x300 .f32) (a1 : IVec S200000 32) (a2 : IVec S2x3200000 32) (a3 : FVec Ideal S300x600 .f32)
    (a4 : FVec Ideal S600 .f32) (a5 : FVec Ideal S600x2 .f32) (a6 : FVec Ideal S2 .f32) (a7 : FVec Ideal S300x600 .f32)
    (a8 : FVec Ideal S600 .f32) (a9 : FVec Ideal S600x300 .f32) (a10 : FVec Ideal S300 .f32) : FVec Ideal S2000x300 .f32 :=
  Cls.clsArr
    (pooled (Att.attArr a0 (truncf (F := Ideal) .bf16 a3 bitsLt_bf16_f32) a4 (wDiff a5) (bDiff a6)) a1 (validCol a2))
    (truncf (F := Ideal) .bf16 a7 bitsLt_bf16_f32) a8 (truncf (F := Ideal) .bf16 a9 bitsLt_bf16_f32) a10

/-- The last boundary's contents at the result buffer are `kernelOut` of the arguments. -/
theorem W4_v29 (c : Dev nD) : @Eq (FVec Ideal S2000x300 .f32) (W4 m ρ c (Proc.devRef .tc main_v29))
    (kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have h := (W4_arr m ρ c 5).trans (Cls.final (V3 m ρ) c)
  rw [V3_v26, V3_v27, V3_arg8, V3_v28, V3_arg10, W2_v21, W2_arg1, W2_v9, W2_arg7, W2_arg8, W2_arg9, W2_arg10] at h
  exact h

/-- The idealized kernel runs, its result buffer ends at `kernelOut` of the arguments, and the arguments end as launched. -/
theorem run : θ_run defs (onTc (τ := τ) (main (F := Ideal))) ⟨m, fun _ => 0, ρ⟩ (fun r => ∀ c : Dev nD,
      @Eq (FVec Ideal S2000x300 .f32) (r.2.mem ((c.tc : Thread nD τ).loc main_v29))
        (kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W4_v29 m ρ c), (h c).2⟩) (run_valued m ρ)

end Cert.KernelIdeal.Valued

end
-- ==== Proof.RefValue.lean ====
/-
  The reference program's result, read index by index.

  Node n's two logits are the affine forms of the hidden layer tanh(h(n,·)·A + b₁) in the two columns of the second
  layer; the softmax subtracts their maximum, exponentiates and divides by the sum. With real second-layer entries
  its column 0 is the logistic function of the logits' difference. The update array's entry (n, 0, e) is that weight
  times the node's validity times its feature e; graph b's pooled feature e is slab 0 of the segment sum at (b, ·, e),
  the operand there plus the sum of the updates that land on it; the classifier is applied row by row.
-/
import proofs.«180667_j4002909520045_1_alg».proof.Proof.RefReadP
import proofs.«180667_j4002909520045_1_alg».proof.Proof.RowOps
import Idealize.ShloMosaic.PureOps.Reduce
import Idealize.ShloMosaic.Lib.ValueIdx

set_option maxRecDepth 16384

noncomputable section

namespace Cert.ReferenceIdeal.RefValue

open Cert.ReferenceIdeal Cert.ReferenceIdeal.Gen Cert.ReferenceIdeal.ReadP Cert.Pooling
open Idealize.ShloMosaic Idealize.ShloMosaic.TcCoe Idealize.SL.Sem Idealize.ShloMosaic.StableHlo Idealize.ShloMosaic.ValueIdx

local macro "ixeq1" : tactic => `(tactic| (funext a; apply Fin.ext; match a with | ⟨0, _⟩ => rfl))
local macro "ixeq2" : tactic => `(tactic| (funext a; apply Fin.ext; match a with | ⟨0, _⟩ => rfl | ⟨1, _⟩ => rfl))
local macro "ixeq3" : tactic => `(tactic| (funext a; apply Fin.ext; match a with | ⟨0, _⟩ => rfl | ⟨1, _⟩ => rfl | ⟨2, _⟩ => rfl))

variable (x0 : (⟨S200000x300, .f32⟩ : BufTy).Contents (Elt Ideal)) (x1 : (⟨S200000, .i32⟩ : BufTy).Contents (Elt Ideal)) (x2 : (⟨S2x3200000, .i32⟩ : BufTy).Contents (Elt Ideal))
  (x3 : (⟨S300x600, .f32⟩ : BufTy).Contents (Elt Ideal)) (x4 : (⟨S600, .f32⟩ : BufTy).Contents (Elt Ideal)) (x5 : (⟨S600x2, .f32⟩ : BufTy).Contents (Elt Ideal)) (x6 : (⟨S2, .f32⟩ : BufTy).Contents (Elt Ideal))
  (x7 : (⟨S300x600, .f32⟩ : BufTy).Contents (Elt Ideal)) (x8 : (⟨S600, .f32⟩ : BufTy).Contents (Elt Ideal)) (x9 : (⟨S600x300, .f32⟩ : BufTy).Contents (Elt Ideal)) (x10 : (⟨S300, .f32⟩ : BufTy).Contents (Elt Ideal))

/-! ## The attention network at one node -/

/-- Node n's logit c is the affine form of the hidden layer in column c of the second layer. -/
theorem logit_eq (n : Fin 200000) (c : Fin 2) :
    val_main_v18 (F := Ideal) x0 x3 x4 x5 x6 (ix2 n c)
      = logitRow (fun j : Fin 300 => x0 (ix2 n j)) (fun (j : Fin 300) (k : Fin 600) => x3 (ix2 j k))
          (fun k : Fin 600 => x4 (ix1 k)) (fun k : Fin 600 => x5 (ix2 k c)) (x6 (ix1 c)) := by
  unfold logitRow
  show val_main_v15 (F := Ideal) x0 x3 x4 x5 (ix2 n c) + val_main_v17 (F := Ideal) x6 (ix2 n c) = _
  refine congrArg₂ (· + ·) ?_ ?_
  · rw [val_main_v15_apply]
    refine Finset.sum_congr rfl fun k _ => ?_
    rw [show lidx_main_v15 (ix2 n c) k = ix2 n k from by ixeq2, show ridx_main_v15 (ix2 n c) k = ix2 k c from by ixeq2]
    refine congrArg₂ (· * ·) ?_ rfl
    unfold hidRow
    show Ideal.tanh (val_main_v10 (F := Ideal) x0 x3 (ix2 n k) + val_main_v12 (F := Ideal) x4 (ix2 n k)) = _
    refine congrArg Ideal.tanh (congrArg₂ (· + ·) ?_ ?_)
    · rw [val_main_v10_apply]
      refine Finset.sum_congr rfl fun j _ => ?_
      rw [show lidx_main_v10 (ix2 n k) j = ix2 n j from by ixeq2, show ridx_main_v10 (ix2 n k) j = ix2 j k from by ixeq2]
    · rw [val_main_v12_apply, val_main_v11_apply]
      exact congrArg x4 (by ixeq1)
  · rw [val_main_v17_apply, val_main_v16_apply]
    exact congrArg x6 (by ixeq1)

/-- The maximum over an axis of two entries, the reduction started at −∞. -/
theorem reduce_max_two (y : FVec Ideal S200000x2 .f32) (n : Fin 200000) :
    Host.reduce (FloatOps.maximumf (F := Ideal) (φ := .f32)) y (constant (F := Ideal) S_ .f32 0xFF800000#32)
        reducesTo_S200000x2_S200000_d1 h_S_ (ix1 n) = max (y (ix2 n 0)) (y (ix2 n 1)) := by
  have hbot : Ideal.ofBits .f32 0xFF800000#32 = ⊥ := by simp [Ideal.ofBits, Ideal.ieee]
  have hR : S200000x2.Reduces [1] S200000 := by decide
  rw [Host.reduce_eq_fold_single (FloatOps.maximumf (F := Ideal) (φ := .f32)) y _ reducesTo_S200000x2_S200000_d1 hR h_S_]
  have hf : (y ∘ hR.lift (ix1 n)) = fun k : Fin 2 => y (ix2 n k) :=
    funext fun k => congrArg y (by ixeq2)
  rw [hf]
  show Finset.fold max (Ideal.ofBits .f32 0xFF800000#32) (fun k : Fin 2 => y (ix2 n k)) (Finset.univ : Finset (Fin 2)) = _
  rw [hbot, show (Finset.univ : Finset (Fin 2)) = insert 0 {1} from by decide, Finset.fold_insert (by decide), Finset.fold_singleton,
    max_bot_right]

/-- The value the softmax subtracts at node n is the larger of the node's two logits. -/
theorem rowmax_eq (n : Fin 200000) (c : Fin 2) :
    val_main_v23 (F := Ideal) x0 x3 x4 x5 x6 (ix2 n c)
      = max (val_main_v18 (F := Ideal) x0 x3 x4 x5 x6 (ix2 n 0)) (val_main_v18 (F := Ideal) x0 x3 x4 x5 x6 (ix2 n 1)) := by
  have hbot : Ideal.ofBits .f32 0xFF800000#32 = ⊥ := by simp [Ideal.ofBits, Ideal.ieee]
  rw [val_main_v23_apply, val_main_v22_apply, show idx_main_v22 (idx_main_v23 (ix2 n c)) = ix1 n from by ixeq1,
    val_main_v21_apply, val_main_v20_apply, val_main_cst_3_apply]
  unfold val_main_v19 val_main_cst_2
  generalize val_main_v18 (F := Ideal) x0 x3 x4 x5 x6 = y
  rw [reduce_max_two y n]
  show max (Ideal.ofBits .f32 0xFF800000#32) _ = _
  rw [hbot, max_bot_left]

/-- Column 0 of node n's softmax is the attention weight at the difference of the second layer's two columns. -/
theorem softmax0_eq (u : Fin 600 → Fin 2 → ℝ) (hu : ∀ k c, x5 (ix2 k c) = (u k c : EReal))
    (p : Fin 2 → ℝ) (hp : ∀ c, x6 (ix1 c) = (p c : EReal)) (n : Fin 200000) :
    val_main_v29 (F := Ideal) x0 x3 x4 x5 x6 (ix2 n 0)
      = attRow (fun j : Fin 300 => x0 (ix2 n j)) (fun (j : Fin 300) (k : Fin 600) => x3 (ix2 j k))
          (fun k : Fin 600 => x4 (ix1 k)) (fun k : Fin 600 => x5 (ix2 k 0) - x5 (ix2 k 1)) (x6 (ix1 0) - x6 (ix1 1)) := by
  have e := softmax0_eq_attRow (fun j : Fin 300 => x0 (ix2 n j)) (fun (j : Fin 300) (k : Fin 600) => x3 (ix2 j k))
    (fun k : Fin 600 => x4 (ix1 k)) (fun k => u k 0) (fun k => u k 1) (p 0) (p 1)
    (val_main_v18 (F := Ideal) x0 x3 x4 x5 x6 (ix2 n 0)) (val_main_v18 (F := Ideal) x0 x3 x4 x5 x6 (ix2 n 1)) _
    (by rw [logit_eq]; simp only [hu, hp]) (by rw [logit_eq]; simp only [hu, hp]) rfl
  simp only [hu, hp]
  rw [← e]
  have h25 : ∀ c : Fin 2, val_main_v25 (F := Ideal) x0 x3 x4 x5 x6 (ix2 n c)
      = Ideal.exp (val_main_v18 (F := Ideal) x0 x3 x4 x5 x6 (ix2 n c)
          - max (val_main_v18 (F := Ideal) x0 x3 x4 x5 x6 (ix2 n 0)) (val_main_v18 (F := Ideal) x0 x3 x4 x5 x6 (ix2 n 1))) := fun c => by
    rw [val_main_v25_apply, val_main_v24_apply, rowmax_eq]
    rfl
  rw [val_main_v29_apply, val_main_v28_apply, val_main_v27_apply, show idx_main_v27 (idx_main_v28 (ix2 n 0)) = ix1 n from by ixeq1,
    val_main_v26_apply, Fin.sum_univ_two, show idx_main_v26 (ix1 n) 0 = ix2 n 0 from by ixeq2,
    show idx_main_v26 (ix1 n) 1 = ix2 n 1 from by ixeq2, h25 0, h25 1, val_main_cst_4_apply]
  show Ideal.div _ (Ideal.ofBits .f32 0x00000000#32 + _) = _
  rw [Ideal.ofBits_zero_f32]

/-- The update array at (n, 0, e): the node's softmax column 0, times its validity, times its feature e. -/
theorem update_eq (n : Fin 200000) (e : Fin 300) :
    val_main_v36 (F := Ideal) x0 x2 x3 x4 x5 x6 (ix3 n (0 : Fin 2) e)
      = val_main_v29 (F := Ideal) x0 x3 x4 x5 x6 (ix2 n 0) * val_main_v9 (F := Ideal) x2 (ix2 n (0 : Fin 1)) * x0 (ix2 n e) := by
  show val_main_v34 (F := Ideal) x0 x2 x3 x4 x5 x6 (ix3 n 0 e) * val_main_v35 (F := Ideal) x0 (ix3 n 0 e) = _
  refine congrArg₂ (· * ·) ?_ ?_
  · rw [val_main_v34_apply, val_main_v32_apply, show idx_main_v32 (idx_main_v34 (ix3 n (0 : Fin 2) e)) = ix2 n 0 from by ixeq2]
    show val_main_v29 (F := Ideal) x0 x3 x4 x5 x6 (ix2 n 0) * val_main_v30 (F := Ideal) x2 (ix2 n 0) = _
    refine congrArg₂ (· * ·) rfl ?_
    rw [val_main_v30_apply]
    exact congrArg _ (by ixeq2)
  · rw [val_main_v35_apply, val_main_v33_apply]
    exact congrArg x0 (by ixeq2)

/-! ## The pooled features and the classifier -/

/-- Graph b's pooled feature e: the segment sum's operand at (b, 0, e) plus the sum of the updates landing there. -/
theorem pooled_eq (b : Fin 2000) (e : Fin 300) :
    val_main_v41 (F := Ideal) x0 x1 x2 x3 x4 x5 x6 (ix2 b e)
      = val_main_v37 (F := Ideal) (ix3 b (0 : Fin 2) e)
        + ∑ j ∈ Finset.univ.filter (fun j => ScatterDims.resultIdx? scatter_S2000x2x300_S200000x1_S200000x2x300_12_0_0_1 j
              (val_main_v38 (F := Ideal) x1) = some (ix3 b (0 : Fin 2) e)),
            val_main_v36 (F := Ideal) x0 x2 x3 x4 x5 x6 j := by
  rw [val_main_v41_apply, val_main_v40_apply]
  have hi : idx_main_v40 (idx_main_v41 (ix2 b e)) = ix3 b (0 : Fin 2) e := by
    funext a; apply Fin.ext
    have hb := b.isLt; have he := e.isLt
    match a with
    | ⟨0, _⟩ => show (b.val * 300 + e.val) / 300 = b.val; omega
    | ⟨1, _⟩ => rfl
    | ⟨2, _⟩ => show (b.val * 300 + e.val) % 300 = e.val; omega
  rw [hi]
  rfl

/-- The reference's result at (b, e): the classifier applied to row b of the pooled features. -/
theorem cls_eq (b : Fin 2000) (e : Fin 300) :
    val_main_v52 (F := Ideal) x0 x1 x2 x3 x4 x5 x6 x7 x8 x9 x10 (ix2 b e)
      = clsRow (fun j : Fin 300 => val_main_v41 (F := Ideal) x0 x1 x2 x3 x4 x5 x6 (ix2 b j))
          (fun (j : Fin 300) (k : Fin 600) => x7 (ix2 j k)) (fun k : Fin 600 => x8 (ix1 k))
          (fun (k : Fin 600) (q : Fin 300) => x9 (ix2 k q)) (fun q : Fin 300 => x10 (ix1 q)) cLo cHi cZ e := by
  unfold clsRow
  show max (val_main_v48 (F := Ideal) x0 x1 x2 x3 x4 x5 x6 x7 x8 x9 (ix2 b e) + val_main_v50 (F := Ideal) x10 (ix2 b e))
      (val_main_call2_v0 (F := Ideal) (ix2 b e)) = _
  refine congrArg₂ max (congrArg₂ (· + ·) ?_ ?_) ?_
  · rw [val_main_v48_apply]
    refine Finset.sum_congr rfl fun k _ => ?_
    rw [show lidx_main_v48 (ix2 b e) k = ix2 b k from by ixeq2, show ridx_main_v48 (ix2 b e) k = ix2 k e from by ixeq2]
    refine congrArg₂ (· * ·) ?_ rfl
    show max (val_main_v43 (F := Ideal) x0 x1 x2 x3 x4 x5 x6 x7 (ix2 b k) + val_main_v45 (F := Ideal) x8 (ix2 b k))
        (val_main_call1_v0 (F := Ideal) (ix2 b k)) = _
    refine congrArg₂ max (congrArg₂ (· + ·) ?_ ?_) ?_
    · rw [val_main_v43_apply]
      refine Finset.sum_congr rfl fun j _ => ?_
      rw [show lidx_main_v43 (ix2 b k) j = ix2 b j from by ixeq2, show ridx_main_v43 (ix2 b k) j = ix2 j k from by ixeq2]
      refine congrArg₂ (· * ·) ?_ rfl
      show min (val_main_call0_v4 (F := Ideal) (ix2 b j))
          (max (val_main_call0_v1 (F := Ideal) (ix2 b j)) (val_main_v41 (F := Ideal) x0 x1 x2 x3 x4 x5 x6 (ix2 b j))) = _
      rw [val_main_call0_v4_apply, val_main_call0_v1_apply]
      rfl
    · rw [val_main_v45_apply, val_main_v44_apply]
      exact congrArg x8 (by ixeq1)
    · rw [val_main_call1_v0_apply]; rfl
  · rw [val_main_v50_apply, val_main_v49_apply]
    exact congrArg x10 (by ixeq1)
  · rw [val_main_call2_v0_apply]; rfl

end Cert.ReferenceIdeal.RefValue

end
-- ==== Proof.Finite.lean ====
/-
  What the precondition gives: the second attention layer's weights and biases are real numbers.

  The precondition is the conjunction, argument by argument, of "every entry's absolute value is below +∞".
  The conjunction is a chain of one-bit `and`s, each conjunct an `and`-reduction of a comparison mask; an
  extended real whose absolute value max(x, −x) is below +∞ is neither +∞ nor −∞, so it is a real number.
  Only the conjuncts of the two arguments the softmax law needs (the [600, 2] weights and the [2] biases) are read.
-/
import proofs.«180667_j4002909520045_1_alg».proof.Pre_finite_inputs
import proofs.«180667_j4002909520045_1_alg».proof.Proof.Gen.Pre_finite_inputs
import Idealize.ShloMosaic.PureOps.Ideal
import Idealize.ShloMosaic.Lib.ReduceAll
import Idealize.ShloMosaic.Lib.Affine
import Idealize.ShloMosaic.Lib.ValueIdx

set_option maxRecDepth 16384

noncomputable section

namespace Cert.Pooling

open Idealize.ShloMosaic Cert.Pre_finite_inputs

instance : Subsingleton S_.Idx := ⟨fun a b => funext fun d => d.elim0⟩

/-- An extended real whose absolute value compares below +∞ is a real number. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | coe r => exact ⟨r, rfl⟩
  | top => exact absurd h (by simp [Ideal.cmp])

/-- Under the precondition every entry of the [600, 2] weights and of the [2] biases is a real number. -/
theorem real_of_pre (a0 : FVec Ideal S200000x300 .f32) (a1 : IVec S200000 32) (a2 : IVec S2x3200000 32)
    (a3 : FVec Ideal S300x600 .f32) (a4 : FVec Ideal S600 .f32) (a5 : FVec Ideal S600x2 .f32) (a6 : FVec Ideal S2 .f32)
    (a7 : FVec Ideal S300x600 .f32) (a8 : FVec Ideal S600 .f32) (a9 : FVec Ideal S600x300 .f32) (a10 : FVec Ideal S300 .f32)
    (h : fn (F := Ideal) a0 a1 a2 a3 a4 a5 a6 a7 a8 a9 a10 = fun _ => 1#1) :
    (∀ i, ∃ r : ℝ, a5 i = (r : EReal)) ∧ (∀ i, ∃ r : ℝ, a6 i = (r : EReal)) := by
  have h0 := congrFun h ValueIdx.ix0
  dsimp only [fn, fn_part1, fn_part2] at h0
  obtain ⟨h38, -⟩ := IntOp.andi_eq_one.mp h0
  obtain ⟨h33, -⟩ := IntOp.andi_eq_one.mp h38
  obtain ⟨h28, -⟩ := IntOp.andi_eq_one.mp h33
  obtain ⟨h23, -⟩ := IntOp.andi_eq_one.mp h28
  obtain ⟨h18, h22⟩ := IntOp.andi_eq_one.mp h23
  obtain ⟨-, h17⟩ := IntOp.andi_eq_one.mp h18
  refine ⟨fun i => real_of_abs_lt_inf _ ?_, fun i => real_of_abs_lt_inf _ ?_⟩
  · exact Host.reduce_andi_all _ _ _ _ _ h17 i
  · exact Host.reduce_andi_all _ _ _ _ _ h22 i

end Cert.Pooling

end
-- ==== Proof.SegmentSum.lean ====
/-
  The two segment sums, compared.

  Both programs add node rows into graph rows by the same segment ids. The kernel scatters rows of a
  [200000, 300] array into [2000, 300]; the reference scatters [2, 300] slabs of a [200000, 2, 300] array into
  [2000, 2, 300] and then keeps slab 0. An update lands where its node's segment id says, at its own window
  coordinates; an id outside [0, 2000) drops the update, in both programs alike. So the updates landing on
  (b, 0, e) of the three-axis result are exactly the (n, 0, e) with id(n) = b, in bijection with the updates
  (n, e) landing on (b, e) of the two-axis result: if the two update arrays agree along that bijection and the
  operands agree at the two places, so do the two sums.
-/
import proofs.«180667_j4002909520045_1_alg».proof.Proof.Gen.KernelIdeal
import proofs.«180667_j4002909520045_1_alg».proof.Proof.Gen.ReferenceIdeal
import Idealize.ShloMosaic.Lib.ValueIdx
import Idealize.ShloMosaic.PureOps.Ideal

noncomputable section

namespace Cert.Pooling

open Idealize.ShloMosaic Idealize.ShloMosaic.ValueIdx

local notation "d₂" => Cert.KernelIdeal.scatter_S2000x300_S200000x1_S200000x300_1_0_0_1
local notation "d₃" => Cert.ReferenceIdeal.scatter_S2000x2x300_S200000x1_S200000x2x300_12_0_0_1

abbrev Ids := IVec (⟨2, ![200000, 1]⟩ : Shape) 32

/-- The segment id of node `n`, read signed. -/
def segId (ids : Ids) (n : Fin 200000) : Int := (ids (ix2 n (0 : Fin 1))).toInt

/-! ## Where an update of the two-axis scatter lands -/

theorem start₂_0 (n : Fin 200000) (e : Fin 300) (ids : Ids) :
    ScatterDims.start d₂ (ix2 n e) ids 0 = segId ids n := by
  unfold ScatterDims.start
  rw [dif_pos (by decide)]
  refine congrArg (fun k => (ids k).toInt) (funext fun b => ?_)
  match b with
  | ⟨0, _⟩ => rfl
  | ⟨1, _⟩ => rfl

theorem start₂_1 (j : (⟨2, ![200000, 300]⟩ : Shape).Idx) (ids : Ids) : ScatterDims.start d₂ j ids 1 = 0 := by
  unfold ScatterDims.start; rw [dif_neg (by decide)]

theorem window₂_0 (j : (⟨2, ![200000, 300]⟩ : Shape).Idx) : ScatterDims.window d₂ j 0 = 0 := by
  unfold ScatterDims.window; rw [dif_neg (by decide)]

theorem window₂_1 (n : Fin 200000) (e : Fin 300) : ScatterDims.window d₂ (ix2 n e) 1 = e.val := by
  unfold ScatterDims.window; rw [dif_pos (by decide)]; rfl

/-- An update `(n, e)` lands on `(b, e')` exactly when node `n`'s id is `b` and `e = e'`. -/
theorem lands₂ (n : Fin 200000) (e : Fin 300) (ids : Ids) (b : Fin 2000) (e' : Fin 300) :
    ScatterDims.resultIdx? d₂ (ix2 n e) ids = some (ix2 b e') ↔ segId ids n = (b.val : Int) ∧ e = e' := by
  unfold ScatterDims.resultIdx?
  constructor
  · intro h
    split at h
    · rename_i hall
      have h' := Option.some.inj h
      have h0 := congrArg (fun f => (f 0).val) h'
      have h1 := congrArg (fun f => (f 1).val) h'
      simp only [start₂_0, window₂_0, start₂_1, window₂_1] at h0 h1
      have hb := (hall 0).1
      rw [start₂_0, window₂_0] at hb
      refine ⟨?_, Fin.ext ?_⟩
      · show segId ids n = (b.val : Int)
        have : ((segId ids n + ((0 : ℕ) : Int)).toNat) = b.val := h0
        omega
      · have : ((0 : Int) + (e.val : Int)).toNat = e'.val := h1
        omega
    · exact absurd h (by simp)
  · rintro ⟨hb, rfl⟩
    have hall : ∀ a, 0 ≤ ScatterDims.start d₂ (ix2 n e) ids a + ScatterDims.window d₂ (ix2 n e) a ∧
        ScatterDims.start d₂ (ix2 n e) ids a + ScatterDims.window d₂ (ix2 n e) a < (⟨2, ![2000, 300]⟩ : Shape).size a := by
      intro a
      match a with
      | ⟨0, _⟩ =>
        show 0 ≤ ScatterDims.start d₂ (ix2 n e) ids 0 + ((ScatterDims.window d₂ (ix2 n e) 0 : ℕ) : Int) ∧
          ScatterDims.start d₂ (ix2 n e) ids 0 + ((ScatterDims.window d₂ (ix2 n e) 0 : ℕ) : Int) < ((2000 : ℕ) : Int)
        rw [start₂_0, window₂_0, hb]
        have := b.isLt; omega
      | ⟨1, _⟩ =>
        show 0 ≤ ScatterDims.start d₂ (ix2 n e) ids 1 + ((ScatterDims.window d₂ (ix2 n e) 1 : ℕ) : Int) ∧
          ScatterDims.start d₂ (ix2 n e) ids 1 + ((ScatterDims.window d₂ (ix2 n e) 1 : ℕ) : Int) < ((300 : ℕ) : Int)
        rw [start₂_1, window₂_1]
        have := e.isLt; omega
    rw [dif_pos hall]
    refine congrArg some (funext fun a => Fin.ext ?_)
    match a with
    | ⟨0, _⟩ =>
      show (ScatterDims.start d₂ (ix2 n e) ids 0 + ScatterDims.window d₂ (ix2 n e) 0).toNat = b.val
      rw [start₂_0, window₂_0, hb]; omega
    | ⟨1, _⟩ =>
      show (ScatterDims.start d₂ (ix2 n e) ids 1 + ScatterDims.window d₂ (ix2 n e) 1).toNat = e.val
      rw [start₂_1, window₂_1]; omega

/-! ## Where an update of the three-axis scatter lands -/

theorem start₃_0 (n : Fin 200000) (c : Fin 2) (e : Fin 300) (ids : Ids) :
    ScatterDims.start d₃ (ix3 n c e) ids 0 = segId ids n := by
  unfold ScatterDims.start
  rw [dif_pos (by decide)]
  refine congrArg (fun k => (ids k).toInt) (funext fun b => ?_)
  match b with
  | ⟨0, _⟩ => rfl
  | ⟨1, _⟩ => rfl

theorem start₃_1 (j : (⟨3, ![200000, 2, 300]⟩ : Shape).Idx) (ids : Ids) : ScatterDims.start d₃ j ids 1 = 0 := by
  unfold ScatterDims.start; rw [dif_neg (by decide)]

theorem start₃_2 (j : (⟨3, ![200000, 2, 300]⟩ : Shape).Idx) (ids : Ids) : ScatterDims.start d₃ j ids 2 = 0 := by
  unfold ScatterDims.start; rw [dif_neg (by decide)]

theorem window₃_0 (j : (⟨3, ![200000, 2, 300]⟩ : Shape).Idx) : ScatterDims.window d₃ j 0 = 0 := by
  unfold ScatterDims.window; rw [dif_neg (by decide)]

theorem window₃_1 (n : Fin 200000) (c : Fin 2) (e : Fin 300) : ScatterDims.window d₃ (ix3 n c e) 1 = c.val := by
  unfold ScatterDims.window; rw [dif_pos (by decide)]; rfl

theorem window₃_2 (n : Fin 200000) (c : Fin 2) (e : Fin 300) : ScatterDims.window d₃ (ix3 n c e) 2 = e.val := by
  unfold ScatterDims.window; rw [dif_pos (by decide)]; rfl

/-- An update `(n, c, e)` lands on `(b, c', e')` exactly when node `n`'s id is `b`, `c = c'` and `e = e'`. -/
theorem lands₃ (n : Fin 200000) (c : Fin 2) (e : Fin 300) (ids : Ids) (b : Fin 2000) (c' : Fin 2) (e' : Fin 300) :
    ScatterDims.resultIdx? d₃ (ix3 n c e) ids = some (ix3 b c' e') ↔ segId ids n = (b.val : Int) ∧ c = c' ∧ e = e' := by
  unfold ScatterDims.resultIdx?
  constructor
  · intro h
    split at h
    · rename_i hall
      have h' := Option.some.inj h
      have h0 := congrArg (fun f => (f 0).val) h'
      have h1 := congrArg (fun f => (f 1).val) h'
      have h2 := congrArg (fun f => (f 2).val) h'
      simp only [start₃_0, window₃_0, start₃_1, window₃_1, start₃_2, window₃_2] at h0 h1 h2
      have hb := (hall 0).1
      rw [start₃_0, window₃_0] at hb
      refine ⟨?_, Fin.ext ?_, Fin.ext ?_⟩
      · have : ((segId ids n + ((0 : ℕ) : Int)).toNat) = b.val := h0
        omega
      · have : ((0 : Int) + (c.val : Int)).toNat = c'.val := h1
        omega
      · have : ((0 : Int) + (e.val : Int)).toNat = e'.val := h2
        omega
    · exact absurd h (by simp)
  · rintro ⟨hb, rfl, rfl⟩
    have hall : ∀ a, 0 ≤ ScatterDims.start d₃ (ix3 n c e) ids a + ScatterDims.window d₃ (ix3 n c e) a ∧
        ScatterDims.start d₃ (ix3 n c e) ids a + ScatterDims.window d₃ (ix3 n c e) a < (⟨3, ![2000, 2, 300]⟩ : Shape).size a := by
      intro a
      match a with
      | ⟨0, _⟩ =>
        show 0 ≤ ScatterDims.start d₃ (ix3 n c e) ids 0 + ((ScatterDims.window d₃ (ix3 n c e) 0 : ℕ) : Int) ∧
          ScatterDims.start d₃ (ix3 n c e) ids 0 + ((ScatterDims.window d₃ (ix3 n c e) 0 : ℕ) : Int) < ((2000 : ℕ) : Int)
        rw [start₃_0, window₃_0, hb]
        have := b.isLt; omega
      | ⟨1, _⟩ =>
        show 0 ≤ ScatterDims.start d₃ (ix3 n c e) ids 1 + ((ScatterDims.window d₃ (ix3 n c e) 1 : ℕ) : Int) ∧
          ScatterDims.start d₃ (ix3 n c e) ids 1 + ((ScatterDims.window d₃ (ix3 n c e) 1 : ℕ) : Int) < ((2 : ℕ) : Int)
        rw [start₃_1, window₃_1]
        have := c.isLt; omega
      | ⟨2, _⟩ =>
        show 0 ≤ ScatterDims.start d₃ (ix3 n c e) ids 2 + ((ScatterDims.window d₃ (ix3 n c e) 2 : ℕ) : Int) ∧
          ScatterDims.start d₃ (ix3 n c e) ids 2 + ((ScatterDims.window d₃ (ix3 n c e) 2 : ℕ) : Int) < ((300 : ℕ) : Int)
        rw [start₃_2, window₃_2]
        have := e.isLt; omega
    rw [dif_pos hall]
    refine congrArg some (funext fun a => Fin.ext ?_)
    match a with
    | ⟨0, _⟩ =>
      show (ScatterDims.start d₃ (ix3 n c e) ids 0 + ScatterDims.window d₃ (ix3 n c e) 0).toNat = b.val
      rw [start₃_0, window₃_0, hb]; omega
    | ⟨1, _⟩ =>
      show (ScatterDims.start d₃ (ix3 n c e) ids 1 + ScatterDims.window d₃ (ix3 n c e) 1).toNat = c.val
      rw [start₃_1, window₃_1]; omega
    | ⟨2, _⟩ =>
      show (ScatterDims.start d₃ (ix3 n c e) ids 2 + ScatterDims.window d₃ (ix3 n c e) 2).toNat = e.val
      rw [start₃_2, window₃_2]; omega

/-! ## Slab 0 of the three-axis segment sum is the two-axis segment sum -/

/-- The update `(n, 0, e)` of the three-axis array that corresponds to the update `(n, e)` of the two-axis one. -/
def lift₃ (j : (⟨2, ![200000, 300]⟩ : Shape).Idx) : (⟨3, ![200000, 2, 300]⟩ : Shape).Idx :=
  ix3 (n0 := 200000) (n1 := 2) (n2 := 300) (j 0) 0 (j 1)

/-- … and back: the node and the feature coordinate. -/
def drop₃ (j : (⟨3, ![200000, 2, 300]⟩ : Shape).Idx) : (⟨2, ![200000, 300]⟩ : Shape).Idx :=
  ix2 (n0 := 200000) (n1 := 300) (j 0) (j 2)

/-- The updates that land on `(b, 0, e)` of the three-axis result sum to what the updates landing on `(b, e)` of the
    two-axis result sum to, when the update arrays agree along `(n, 0, e) ↔ (n, e)`. -/
theorem segsum_slab0 (ids : Ids) (U₂ : (⟨2, ![200000, 300]⟩ : Shape).Idx → EReal)
    (U₃ : (⟨3, ![200000, 2, 300]⟩ : Shape).Idx → EReal)
    (hU : ∀ (n : Fin 200000) (e : Fin 300), U₃ (ix3 n (0 : Fin 2) e) = U₂ (ix2 n e)) (b : Fin 2000) (e : Fin 300) :
    ∑ j ∈ Finset.univ.filter (fun j => ScatterDims.resultIdx? d₃ j ids = some (ix3 b (0 : Fin 2) e)), U₃ j
      = ∑ j ∈ Finset.univ.filter (fun j => ScatterDims.resultIdx? d₂ j ids = some (ix2 b e)), U₂ j := by
  refine Finset.sum_bij' (fun j _ => drop₃ j) (fun j _ => lift₃ j) ?_ ?_ ?_ ?_ ?_
  · intro j hj
    obtain ⟨n, c, e', rfl⟩ : ∃ (n : Fin 200000) (c : Fin 2) (e' : Fin 300), j = ix3 n c e' := ⟨j 0, j 1, j 2, eq_ix3 j⟩
    rw [Finset.mem_filter] at hj ⊢
    obtain ⟨hb, -, he⟩ := (lands₃ n c e' ids b 0 e).mp hj.2
    exact ⟨Finset.mem_univ _, (lands₂ n e' ids b e).mpr ⟨hb, he⟩⟩
  · intro j hj
    obtain ⟨n, e', rfl⟩ : ∃ (n : Fin 200000) (e' : Fin 300), j = ix2 n e' := ⟨j 0, j 1, eq_ix2 j⟩
    rw [Finset.mem_filter] at hj ⊢
    obtain ⟨hb, he⟩ := (lands₂ n e' ids b e).mp hj.2
    exact ⟨Finset.mem_univ _, (lands₃ n 0 e' ids b 0 e).mpr ⟨hb, rfl, he⟩⟩
  · intro j hj
    obtain ⟨n, c, e', rfl⟩ : ∃ (n : Fin 200000) (c : Fin 2) (e' : Fin 300), j = ix3 n c e' := ⟨j 0, j 1, j 2, eq_ix3 j⟩
    rw [Finset.mem_filter] at hj
    obtain ⟨-, hc, -⟩ := (lands₃ n c e' ids b 0 e).mp hj.2
    subst hc
    rfl
  · intro j hj
    obtain ⟨n, e', rfl⟩ : ∃ (n : Fin 200000) (e' : Fin 300), j = ix2 n e' := ⟨j 0, j 1, eq_ix2 j⟩
    rfl
  · intro j hj
    obtain ⟨n, c, e', rfl⟩ : ∃ (n : Fin 200000) (c : Fin 2) (e' : Fin 300), j = ix3 n c e' := ⟨j 0, j 1, j 2, eq_ix3 j⟩
    rw [Finset.mem_filter] at hj
    obtain ⟨-, hc, -⟩ := (lands₃ n c e' ids b 0 e).mp hj.2
    subst hc
    exact hU n e'

end Cert.Pooling

end
-- ==== Proof.Bridge.lean ====
/-
  The two programs compute one function.

  Index by index, at graph b and feature e, both results are the classifier applied to row b of the pooled
  features, so it is enough that the pooled features agree. Both are a zero operand plus a sum over the updates that
  land on the entry; the updates landing on (b, 0, j) of the reference's three-axis array correspond one to one to
  those landing on (b, j) of the kernel's two-axis array, and along that correspondence the update entries agree:
  the reference's is softmax₀(n) · valid(n) · h(n, j), the kernel's is (logistic(diff(n)) · h(n, j)) · valid(n), and
  softmax₀(n) = logistic(diff(n)) because the second attention layer's entries are real (the softmax law);
  the rest is commutativity of the product on the extended reals.
-/
import proofs.«180667_j4002909520045_1_alg».proof.Proof.KernelValue
import proofs.«180667_j4002909520045_1_alg».proof.Proof.RefValue
import proofs.«180667_j4002909520045_1_alg».proof.Proof.SegmentSum
import Idealize.ShloMosaic.Lib.Pipeline.Value
import Idealize.ShloMosaic.Lib.ValueIdx

set_option maxRecDepth 16384

noncomputable section

namespace Cert.Pooling

open Idealize.ShloMosaic Idealize.ShloMosaic.ValueIdx
open Cert.KernelIdeal.Valued Cert.KernelIdeal.Gen Cert.ReferenceIdeal.ReadP Cert.ReferenceIdeal.RefValue

/-- The kernel's second-layer weight operand at row k: column 0 minus column 1 of the weights. -/
theorem wDiff_apply (W : FVec Ideal Cert.KernelIdeal.S600x2 .f32) (k : Fin 600) :
    wDiff W (ix2 k (0 : Fin 1)) = W (ix2 k (0 : Fin 2)) - W (ix2 k (1 : Fin 2)) := by
  unfold wDiff
  show extractStridedSlice Cert.KernelIdeal.S600x1 ![0, 0] W slices_S600x2_S600x1_0_0 (ix2 k (0 : Fin 1))
      - extractStridedSlice Cert.KernelIdeal.S600x1 ![0, 1] W slices_S600x2_S600x1_0_1 (ix2 k (0 : Fin 1)) = _
  rw [extractStridedSlice_apply ![0, 0] W slices_S600x2_S600x1_0_0 (ix2 k (0 : Fin 1)) (ix2 k (0 : Fin 2))
        (fun a => by match a with
          | ⟨0, _⟩ => show k.val = 0 + k.val; omega
          | ⟨1, _⟩ => rfl),
      extractStridedSlice_apply ![0, 1] W slices_S600x2_S600x1_0_1 (ix2 k (0 : Fin 1)) (ix2 k (1 : Fin 2))
        (fun a => by match a with
          | ⟨0, _⟩ => show k.val = 0 + k.val; omega
          | ⟨1, _⟩ => rfl)]

instance : Subsingleton (⟨0, ![]⟩ : Shape).Idx := ⟨fun a b => funext fun d => d.elim0⟩

/-- The kernel's second-layer bias operand: entry 0 minus entry 1 of the biases. -/
theorem bDiff_apply (B : FVec Ideal Cert.KernelIdeal.S2 .f32) :
    bDiff B (ix2 (0 : Fin 1) (0 : Fin 1)) = B (ix1 (0 : Fin 2)) - B (ix1 (1 : Fin 2)) := by
  unfold bDiff
  rw [shapeCast_apply _ shapeCasts_S_S1x1 (ix2 (0 : Fin 1) (0 : Fin 1)) ix0 (by rfl)]
  show shapeCast Cert.KernelIdeal.S_ _ shapeCasts_S1_S_ ix0 - shapeCast Cert.KernelIdeal.S_ _ shapeCasts_S1_S_ ix0 = _
  rw [shapeCast_apply _ shapeCasts_S1_S_ ix0 (ix1 (0 : Fin 1)) (by rfl),
    shapeCast_apply (extractStridedSlice Cert.KernelIdeal.S1 ![1] B slices_S2_S1_1) shapeCasts_S1_S_ ix0 (ix1 (0 : Fin 1)) (by rfl),
    extractStridedSlice_apply ![0] B slices_S2_S1_0 (ix1 (0 : Fin 1)) (ix1 (0 : Fin 2))
      (fun a => by match a with | ⟨0, _⟩ => rfl),
    extractStridedSlice_apply ![1] B slices_S2_S1_1 (ix1 (0 : Fin 1)) (ix1 (1 : Fin 2))
      (fun a => by match a with | ⟨0, _⟩ => rfl)]

variable (a0 : FVec Ideal Cert.KernelIdeal.S200000x300 .f32) (a1 : IVec Cert.KernelIdeal.S200000 32) (a2 : IVec Cert.KernelIdeal.S2x3200000 32)
  (a3 : FVec Ideal Cert.KernelIdeal.S300x600 .f32) (a4 : FVec Ideal Cert.KernelIdeal.S600 .f32) (a5 : FVec Ideal Cert.KernelIdeal.S600x2 .f32)
  (a6 : FVec Ideal Cert.KernelIdeal.S2 .f32) (a7 : FVec Ideal Cert.KernelIdeal.S300x600 .f32) (a8 : FVec Ideal Cert.KernelIdeal.S600 .f32)
  (a9 : FVec Ideal Cert.KernelIdeal.S600x300 .f32) (a10 : FVec Ideal Cert.KernelIdeal.S300 .f32)

/-- Along (n, 0, e) ↔ (n, e) the reference's update array and the kernel's agree. -/
theorem update_agree (hW : ∀ i, ∃ r : ℝ, a5 i = (r : EReal)) (hB : ∀ i, ∃ r : ℝ, a6 i = (r : EReal))
    (n : Fin 200000) (e : Fin 300) :
    val_main_v36 (F := Ideal) a0 a2 a3 a4 a5 a6 (ix3 n (0 : Fin 2) e)
      = mulf (Cert.KernelIdeal.Att.attArr a0 (truncf (F := Ideal) .bf16 a3 bitsLt_bf16_f32) a4 (wDiff a5) (bDiff a6))
          (broadcastInDim Cert.KernelIdeal.S200000x300 ![0, 1] bcast_S200000x1_S200000x300_0_1 (validCol a2)) (ix2 n e) := by
  choose u hu using fun (k : Fin 600) (c : Fin 2) => hW (ix2 k c)
  choose p hp using fun (c : Fin 2) => hB (ix1 c)
  rw [update_eq, softmax0_eq a0 a3 a4 a5 a6 u hu p hp n]
  show _ = Cert.KernelIdeal.Att.attArr a0 (truncf (F := Ideal) .bf16 a3 bitsLt_bf16_f32) a4 (wDiff a5) (bDiff a6) (ix2 n e)
      * broadcastInDim Cert.KernelIdeal.S200000x300 ![0, 1] bcast_S200000x1_S200000x300_0_1 (validCol a2) (ix2 n e)
  rw [broadcastInDim_apply ![0, 1] bcast_S200000x1_S200000x300_0_1 (validCol a2) (ix2 n e) (ix2 n (0 : Fin 1))
    (fun a => by match a with
      | ⟨0, _⟩ => show n.val = if (200000 : ℕ) = 1 then 0 else n.val; rw [if_neg (by decide)]
      | ⟨1, _⟩ => rfl)]
  unfold Cert.KernelIdeal.Att.attArr
  simp only [wDiff_apply, bDiff_apply]
  rw [mul_right_comm]
  rfl

/-- The kernel's pooled features at an index: the zero operand there plus the sum of the updates landing on it. -/
theorem pooled_apply (att : FVec Ideal Cert.KernelIdeal.S200000x300 .f32) (ids : IVec Cert.KernelIdeal.S200000 32)
    (valid : FVec Ideal Cert.KernelIdeal.S200000x1 .f32) (i : Cert.KernelIdeal.S2000x300.Idx) :
    pooled att ids valid i
      = broadcastInDim Cert.KernelIdeal.S2000x300 ![] bcast_S_S2000x300 (constant (F := Ideal) Cert.KernelIdeal.S_ .f32 0x00000000#32) i
        + ∑ j ∈ Finset.univ.filter (fun j => ScatterDims.resultIdx? Cert.KernelIdeal.scatter_S2000x300_S200000x1_S200000x300_1_0_0_1 j
              (broadcastInDim Cert.KernelIdeal.S200000x1 ![0] bcast_S200000_S200000x1_0 ids) = some i),
            mulf att (broadcastInDim Cert.KernelIdeal.S200000x300 ![0, 1] bcast_S200000x1_S200000x300_0_1 valid) j := rfl

/-- The pooled features of the two programs agree. -/
theorem pooled_agree (hW : ∀ i, ∃ r : ℝ, a5 i = (r : EReal)) (hB : ∀ i, ∃ r : ℝ, a6 i = (r : EReal))
    (b : Fin 2000) (j : Fin 300) :
    pooled (Cert.KernelIdeal.Att.attArr a0 (truncf (F := Ideal) .bf16 a3 bitsLt_bf16_f32) a4 (wDiff a5) (bDiff a6)) a1 (validCol a2) (ix2 b j)
      = val_main_v41 (F := Ideal) a0 a1 a2 a3 a4 a5 a6 (ix2 b j) := by
  have hs := segsum_slab0 (val_main_v38 (F := Ideal) a1)
    (mulf (Cert.KernelIdeal.Att.attArr a0 (truncf (F := Ideal) .bf16 a3 bitsLt_bf16_f32) a4 (wDiff a5) (bDiff a6))
      (broadcastInDim Cert.KernelIdeal.S200000x300 ![0, 1] bcast_S200000x1_S200000x300_0_1 (validCol a2)))
    (val_main_v36 (F := Ideal) a0 a2 a3 a4 a5 a6) (update_agree a0 a2 a3 a4 a5 a6 hW hB) b j
  rw [pooled_eq, pooled_apply, hs]
  rfl

/-- The idealized kernel's result and the idealized reference's result are one function of the arguments, when the
    second attention layer's weights and biases are real. -/
theorem kernel_eq_reference (hW : ∀ i, ∃ r : ℝ, a5 i = (r : EReal)) (hB : ∀ i, ∃ r : ℝ, a6 i = (r : EReal)) :
    kernelOut a0 a1 a2 a3 a4 a5 a6 a7 a8 a9 a10 = val_main_v52 (F := Ideal) a0 a1 a2 a3 a4 a5 a6 a7 a8 a9 a10 := by
  funext i
  obtain ⟨b, e, rfl⟩ : ∃ (b : Fin 2000) (e : Fin 300), i = ix2 b e := ⟨i 0, i 1, eq_ix2 i⟩
  rw [cls_eq]
  unfold kernelOut Cert.KernelIdeal.Cls.clsArr
  have hp : (fun j : Fin 300 => pooled (Cert.KernelIdeal.Att.attArr a0 (truncf (F := Ideal) .bf16 a3 bitsLt_bf16_f32) a4 (wDiff a5) (bDiff a6)) a1 (validCol a2) (ix2 b j))
      = fun j : Fin 300 => val_main_v41 (F := Ideal) a0 a1 a2 a3 a4 a5 a6 (ix2 b j) :=
    funext fun j => pooled_agree a0 a1 a2 a3 a4 a5 a6 hW hB b j
  show clsRow (fun j : Fin 300 => pooled _ a1 (validCol a2) (ix2 b j)) _ _ _ _ cLo cHi cZ e = _
  rw [hp]
  rfl

end Cert.Pooling

end
-- ==== Proof.lean ====
/-
  Per-graph attention pooling followed by a two-layer classifier: the kernel against its reference.

  The kernel computes the attention weight of a node as logistic(a − b), where a − b is formed from the DIFFERENCE
  of the two columns of the second attention layer (and of its two biases); the reference computes the two logits a
  and b separately and takes column 0 of their softmax. For real a and b these agree,
      e^(a − m) / (e^(a − m) + e^(b − m)) = 1 / (1 + e^(−(a − b)))      (m the larger of a and b),
  and a − b is the affine form in the differences because the hidden layer tanh(·) is real and, under the
  precondition, so are the second layer's entries. The weighted node features are then summed per graph by the same
  segment ids in both programs — the reference over a [·, 2, ·] array of which only slab 0 is kept, the kernel over
  that slab directly — and the same classifier, clip, two matrix products and two relus, is applied row by row.
  A product read at an index is a finite sum on both sides, a change of float format is the identity, and the
  kernel's row blocks tile its arrays, so both results are one function of the arguments.

  The three frames are the programs' runs with the results dropped; the idealization rewrote nothing.
-/
import proofs.«180667_j4002909520045_1_alg».proof.Defs
import proofs.«180667_j4002909520045_1_alg».proof.Proof.Gen.Kernel
import proofs.«180667_j4002909520045_1_alg».proof.Proof.Gen.Kernel.Skeleton
import proofs.«180667_j4002909520045_1_alg».proof.Proof.Gen.Kernel.Launch
import proofs.«180667_j4002909520045_1_alg».proof.Proof.Gen.Kernel.Points
import proofs.«180667_j4002909520045_1_alg».proof.Proof.Gen.Kernel.Frame
import proofs.«180667_j4002909520045_1_alg».proof.Proof.Gen.KernelIdeal
import proofs.«180667_j4002909520045_1_alg».proof.Proof.Gen.KernelIdeal.Skeleton
import proofs.«180667_j4002909520045_1_alg».proof.Proof.Gen.KernelIdeal.Launch
import proofs.«180667_j4002909520045_1_alg».proof.Proof.Gen.KernelIdeal.Points
import proofs.«180667_j4002909520045_1_alg».proof.Proof.Gen.KernelIdeal.Frame
import proofs.«180667_j4002909520045_1_alg».proof.Proof.Gen.ReferenceIdeal
import proofs.«180667_j4002909520045_1_alg».proof.Proof.Gen.Pre_finite_inputs
import proofs.«180667_j4002909520045_1_alg».proof.Proof.RefRunP
import proofs.«180667_j4002909520045_1_alg».proof.Proof.RefReadP
import proofs.«180667_j4002909520045_1_alg».proof.Proof.KernelValue
import proofs.«180667_j4002909520045_1_alg».proof.Proof.RefValue
import proofs.«180667_j4002909520045_1_alg».proof.Proof.Finite
import proofs.«180667_j4002909520045_1_alg».proof.Proof.Bridge
import Idealize.ShloMosaic.Adequacy
import Idealize.ShloMosaic.Init

set_option maxRecDepth 16384

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments, both idealized programs run and end with equal results: the kernel's result
    is `kernelOut` of the arguments, the reference's is its last stage of the same arguments, and under the precondition
    (the second attention layer real) the two are one function. -/
theorem algebraic : Cert.algebraic_KernelIdeal_ReferenceIdeal := by
  intro m ρ m' ρ' hpre hagree
  refine ⟨fun c => Cert.KernelIdeal.Valued.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Valued.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10⟩ := hagree c
  obtain ⟨hW, hB⟩ := Cert.Pooling.real_of_pre _ _ _ _ _ _ _ _ _ _ _ (hpre c)
  rw [Cert.ReferenceIdeal.ReadP.val_main_v52_eq, h0, h1, h2, h3, h4, h5, h6, h7, h8, h9, h10]
  exact (Cert.Pooling.kernel_eq_reference _ _ _ _ _ _ _ _ _ _ _ hW hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
